-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x256 .f32) (main_arg1 : FVec F S256x128 .f32) (main_arg2 : FVec F S128 .f32) (main_arg3 : FVec F S128x32 .f32) (main_arg4 : FVec F S32 .f32) (main_arg5 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S100000x256 : Shape := ⟨2, ![100000, 256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S100000x32 : Shape := ⟨2, ![100000, 32]⟩
abbrev S2000x32 : Shape := ⟨2, ![2000, 32]⟩
abbrev S1600000x32 : Shape := ⟨2, ![1600000, 32]⟩
abbrev S1x32 : Shape := ⟨2, ![1, 32]⟩
abbrev S2000 : Shape := ⟨1, ![2000]⟩

abbrev nBuf : Space → Nat
  | .hbm => 60
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x32, .f32⟩
  | .hbm, ⟨4, _⟩ => ⟨S32, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S1x32, .f32⟩
  | .hbm, ⟨59, _⟩ => ⟨S100000x32, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x32, .f32⟩
  | .local _ .vmem, ⟨17, _⟩ => ⟨S2000x1, .f32⟩
  | .local _ .vmem, ⟨18, _⟩ => ⟨S2000x1, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x1, .f32⟩
  | .local _ .vmem, ⟨24, _⟩ => ⟨S2000x1, .f32⟩
  | .local _ .vmem, ⟨25, _⟩ => ⟨S1x32, .f32⟩
  | .local _ .vmem, ⟨26, _⟩ => ⟨S2000x32, .f32⟩
  | .local _ .vmem, ⟨27, _⟩ => ⟨S2000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x32_S2000x32_1_0_0_1_n_n_wf : DotDims.WF S2000x128 S128x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S100000x32.size a
  hwx3_3 : ∀ i : grid3.Coords, EltTy.bits .f32 = 32 ∨ (Rect.block (s := S100000x32) S2000x32.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x32 : Shape := ⟨2, ![100000, 32]⟩
abbrev S1600000x32 : Shape := ⟨2, ![1600000, 32]⟩
abbrev S1x32 : Shape := ⟨2, ![1, 32]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128x32, .f32⟩
  | 4 => ⟨S32, .f32⟩
  | 5 => ⟨S2x1600000, .i32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1600000, .i32⟩
  | 70 => ⟨S1600000, .i32⟩
  | 71 => ⟨S1x1600000, .i32⟩
  | 72 => ⟨S1600000, .i32⟩
  | 73 => ⟨S100000x32, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x32, .f32⟩
  | 119 => ⟨S1600000x1, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S1x32, .f32⟩
  | 127 => ⟨S100000x32, .f32⟩
  | _ => ⟨S100000x256, .f32⟩

abbrev hbmTy0_1 (i : Nat) : BufTy := match i % 128 with
  | 0 => ⟨S100000x32, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x32, .f32⟩
  | 8 => ⟨S100000x32, .f32⟩
  | 9 => ⟨S100000x32, .f32⟩
  | 10 => ⟨S_, .f32⟩
  | 11 => ⟨S100000, .f32⟩
  | 12 => ⟨S100000x1, .f32⟩
  | 13 => ⟨S100000x1, .f32⟩
  | 14 => ⟨S100000x32, .f32⟩
  | 15 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v93 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The program's run with its result named. Every weakly fair execution of @main terminates, nothing faulting, with the
  argument arrays as launched and the result array holding what the last of the four kernel launches leaves in it:
  the contents `W9` of that buffer after the launch memory has been carried through the stretches of host operations
  and the four launches in order. What those contents are, as a function of the arguments, is read off in the
  modules that follow; this one only states the run with the result buffer kept in the post.
-/
import proofs.«114669_j11862699671726_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_last : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Net

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.Region0.lean ====
/-
  The first launch: the dense product scaled row by row. Its output array, after all fifty grid points have written
  their blocks back, is ONE function of the three arrays the launch reads: entry (r, k) is
      (Σ_j x[r, j] · w[j, k]) · d[r, 0],
  x the [100000, 256] operand (staged 2000 rows at a time), w the [256, 128] weights (staged whole), d the [100000, 1]
  column of row factors. Point t reads rows 2000·t … 2000·t + 1999 of x and d and writes the same rows of the output;
  the rounding of the operands to the narrow format before the matrix unit is the identity on extended reals, and
  the product into a zero accumulator is the plain sum over the contracted axis.
-/
import proofs.«114669_j11862699671726_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«114669_j11862699671726_2_alg».proof.Proof.LibMatProd
import proofs.«114669_j11862699671726_2_alg».proof.Proof.LibKeepdims
set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

open Cert.Gcn.Dense Cert.Keepdims

theorem hzero0 : (![0, 0] : Fin 2 → Nat) = fun _ => 0 := funext fun a => by fin_cases a <;> rfl

/-- The array the first launch leaves: the dense product of `A0` and `A1`, row `r` scaled by `A2 (r, 0)`. -/
def dense0 (A0 : S100000x256.Idx → EReal) (A1 : S256x128.Idx → EReal) (A2 : S100000x1.Idx → EReal) : S100000x128.Idx → EReal :=
  fun i => (∑ j : Fin 256, A0 (ix2 (i 0) j) * A1 (ix2 j (i 1))) * A2 (ix2 (i 0) (0 : Fin 1))

theorem dot0_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot0_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's stored value at row `p`, column `q` of the block: the row of the first operand against the column of the
    second, times the row's factor. -/
theorem pay0_apply (x0 : Vec Ideal S2000x256 .f32) (x1 : Vec Ideal S256x128 .f32) (x2 : Vec Ideal S2000x1 .f32) (p : Fin 2000) (q : Fin 128) :
    k0_pay1 (F := Ideal) x0 x1 x2 (ix2 p q) = (∑ j : Fin 256, x0 (ix2 p j) * x1 (ix2 j q)) * x2 (ix2 p (0 : Fin 1)) := by
  unfold k0_pay1
  refine congrArg₂ (· * ·) ?_ ?_
  · refine (Ideal.matmul_constant_zero_apply dot_S2000x256_S256x128_S2000x128_1_0_0_1_n_n none _ _ (ix2 p q)).trans ?_
    exact sum_contr_eq_prod dot_S2000x256_S256x128_S2000x128_1_0_0_1_n_n rfl rfl dot0_l0
      (fun i k => dot_S2000x256_S256x128_S2000x128_1_0_0_1_n_n.lhsIdx_val_of_single rfl i k)
      (fun i k => dot_S2000x256_S256x128_S2000x128_1_0_0_1_n_n.rhsIdx_val_of_single rfl i k) dot0_r1 x0 x1 (ix2 p q)
  · refine (broadcastTo_a1_ab_apply _ broadcasts_S2000x1_S2000x128 p q).trans ?_
    exact congrFun (shapeCast_self x2 shapeCasts_S2000x1_S2000x1) _

/-- One element of one point's block is the element of the whole-array function at the place the block sits, when
    the loaded blocks hold the arrays' entries at the matching places. -/
theorem point0 (x0 : Vec Ideal S2000x256 .f32) (x1 : Vec Ideal S256x128 .f32) (x2 : Vec Ideal S2000x1 .f32)
    (A0 : S100000x256.Idx → EReal) (A1 : S256x128.Idx → EReal) (A2 : S100000x1.Idx → EReal)
    (y : S2000x128.Idx) (i : S100000x128.Idx)
    (h0 : ∀ k : Fin 256, x0 (ix2 (y 0) k) = A0 (ix2 (i 0) k))
    (h1 : ∀ (k : Fin 256) (q : Fin 128), x1 (ix2 k q) = A1 (ix2 k q))
    (h2 : x2 (ix2 (y 0) (0 : Fin 1)) = A2 (ix2 (i 0) (0 : Fin 1)))
    (hq : (y 1).val = (i 1).val) :
    k0_pay1 (F := Ideal) x0 x1 x2 y = dense0 A0 A1 A2 i := by
  obtain ⟨p, q, rfl⟩ : ∃ (p : Fin 2000) (q : Fin 128), y = ix2 p q := ⟨y 0, y 1, eq_ix2 y⟩
  have h0' : ∀ k : Fin 256, x0 (ix2 p k) = A0 (ix2 (i 0) k) := h0
  have h2' : x2 (ix2 p (0 : Fin 1)) = A2 (ix2 (i 0) (0 : Fin 1)) := h2
  have hq' : q = i 1 := Fin.ext hq
  rw [pay0_apply]
  unfold dense0
  rw [h2']
  refine congrArg (· * _) (Finset.sum_congr rfl fun k _ => ?_)
  rw [h0' k, h1 k, hq']

/-- The block indices over the grid: the row-blocked windows move with the point, the weights stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array function of the arrays as the launch finds them. -/
theorem flushed0 (c : Dev nD) (t : Fin cfg0.N) :
    (dat0 V c).flushed 3 t = ((cfg0.win 3).blk t).view.read (Elt Ideal) (dense0 (V c main_arg0) (V c main_arg1) (V c main_v14)) := by
  show (cfg0.win 3).cut (grid0.coords t) ((dat0 V c).after 3 t) = _
  rw [after0_3]
  unfold out0_3
  rw [View.canon_unit_zero hzero0]
  simp only [View.ld_unit_zero (S := S2000x256) hzero0, View.ld_unit_zero (S := S256x128) hzero0, View.ld_unit_zero (S := S2000x1) hzero0]
  obtain ⟨e00, e01, e10, e11, e20, e21, e30, e31⟩ := idx_facts0 t
  funext j
  show k0_pay1 (iblk0 V c 0 t) (iblk0 V c 1 t) (iblk0 V c 2 t) j
    = dense0 (V c main_arg0) (V c main_arg1) (V c main_v14) (((cfg0.win 3).blk t).view.emb j)
  refine point0 _ _ _ _ _ _ j _ (fun k => ?_) (fun k q => ?_) ?_ ?_
  · show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 256 + 1 * k.val = k.val
      omega
  · show V c main_arg1 (((cfg0.win 1).blk t).view.emb (ix2 k q)) = V c main_arg1 (ix2 k q)
    refine congrArg _ (funext fun a => Fin.ext ?_)
    match a with
    | ⟨0, _⟩ =>
      show win0_1.index t (0 : Fin 2) * 256 + 1 * k.val = k.val
      omega
    | ⟨1, _⟩ =>
      show win0_1.index t (1 : Fin 2) * 128 + 1 * q.val = q.val
      omega
  · show V c main_v14 (((cfg0.win 2).blk t).view.emb (ix2 (j 0) (0 : Fin 1))) = V c main_v14 (ix2 ((((cfg0.win 3).blk t).view.emb j) 0) (0 : Fin 1))
    refine congrArg _ (funext fun a => Fin.ext ?_)
    match a with
    | ⟨0, _⟩ =>
      show win0_2.index t (0 : Fin 2) * 2000 + 1 * (j 0).val = win0_3.index t (0 : Fin 2) * 2000 + 1 * (j 0).val
      omega
    | ⟨1, _⟩ =>
      show win0_2.index t (1 : Fin 2) * 1 + 1 * 0 = 0
      omega
  · show (j 1).val = win0_3.index t (1 : Fin 2) * 128 + 1 * (j 1).val
    omega

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- Every row of the output is in the block of the point that is its number divided by 2000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have hlt : (i 0).val / 2000 < cfg0.N := by omega
  obtain ⟨-, -, -, -, -, -, e30, e31⟩ := idx_facts0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    omega

/-- The output array after the launch: the whole-array function of the arrays as the launch finds them. -/
theorem final0 (c : Dev nD) : (dat0 V c).arrAt 3 cfg0.N = dense0 (V c main_arg0) (V c main_arg1) (V c main_v14) :=
  (dat0 V c).arrAt_eq_of_cover 3 _ (fun t _ => flushed0 V c t) cover0

end Cert.KernelIdeal.Net

end
-- ==== Proof.Region1.lean ====
/-
  The second launch: the first layer's epilogue. Its output array is ONE function of the three arrays it reads: entry
  (r, k) is   max (a[r, k] · d[r, 0] + b[0, k]) 0,   a the [100000, 128] aggregated rows (staged 2000 rows at a time),
  d the [100000, 1] column of row factors, b the [1, 128] bias row (staged whole). Point t reads and writes rows
  2000·t … 2000·t + 1999.
-/
import proofs.«114669_j11862699671726_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«114669_j11862699671726_2_alg».proof.Proof.LibKeepdims
set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

open Cert.Keepdims

theorem hzero1 : (![0, 0] : Fin 2 → Nat) = fun _ => 0 := funext fun a => by fin_cases a <;> rfl

/-- The array the second launch leaves: scale the rows, add the bias row, clip below at zero. -/
def dense1 (A0 : S100000x128.Idx → EReal) (A1 : S100000x1.Idx → EReal) (A2 : S1x128.Idx → EReal) : S100000x128.Idx → EReal :=
  fun i => max (A0 (ix2 (i 0) (i 1)) * A1 (ix2 (i 0) (0 : Fin 1)) + A2 (ix2 (0 : Fin 1) (i 1))) 0

/-- The body's stored value at row `p`, column `q` of the block. -/
theorem pay1_apply (x0 : Vec Ideal S2000x128 .f32) (x1 : Vec Ideal S2000x1 .f32) (x2 : Vec Ideal S1x128 .f32) (p : Fin 2000) (q : Fin 128) :
    k1_pay1 (F := Ideal) x0 x1 x2 (ix2 p q) = max (x0 (ix2 p q) * x1 (ix2 p (0 : Fin 1)) + x2 (ix2 (0 : Fin 1) q)) 0 := by
  unfold k1_pay1
  refine congrArg₂ max ?_ ?_
  · refine congrArg₂ (· + ·) (congrArg₂ (· * ·) ?_ ?_) ?_
    · exact congrFun (shapeCast_self x0 shapeCasts_S2000x128_S2000x128) _
    · refine (broadcastTo_a1_ab_apply _ broadcasts_S2000x1_S2000x128 p q).trans ?_
      exact congrFun (shapeCast_self x1 shapeCasts_S2000x1_S2000x1) _
    · refine (broadcastTo_1b_ab_apply _ broadcasts_S1x128_S2000x128 p q).trans ?_
      exact congrFun (shapeCast_self x2 shapeCasts_S1x128_S1x128) _
  · exact Ideal.ofBits_zero_f32

/-- One element of one point's block is the element of the whole-array function at the place the block sits. -/
theorem point1 (x0 : Vec Ideal S2000x128 .f32) (x1 : Vec Ideal S2000x1 .f32) (x2 : Vec Ideal S1x128 .f32)
    (A0 : S100000x128.Idx → EReal) (A1 : S100000x1.Idx → EReal) (A2 : S1x128.Idx → EReal)
    (y : S2000x128.Idx) (i : S100000x128.Idx)
    (h0 : ∀ k : Fin 128, x0 (ix2 (y 0) k) = A0 (ix2 (i 0) k))
    (h1 : x1 (ix2 (y 0) (0 : Fin 1)) = A1 (ix2 (i 0) (0 : Fin 1)))
    (h2 : ∀ k : Fin 128, x2 (ix2 (0 : Fin 1) k) = A2 (ix2 (0 : Fin 1) k))
    (hq : (y 1).val = (i 1).val) :
    k1_pay1 (F := Ideal) x0 x1 x2 y = dense1 A0 A1 A2 i := by
  obtain ⟨p, q, rfl⟩ : ∃ (p : Fin 2000) (q : Fin 128), y = ix2 p q := ⟨y 0, y 1, eq_ix2 y⟩
  have h0' : ∀ k : Fin 128, x0 (ix2 p k) = A0 (ix2 (i 0) k) := h0
  have h1' : x1 (ix2 p (0 : Fin 1)) = A1 (ix2 (i 0) (0 : Fin 1)) := h1
  have hq' : q = i 1 := Fin.ext hq
  rw [pay1_apply]
  unfold dense1
  rw [h0' q, h1', h2 q, hq']

/-- The block indices over the grid: the row-blocked windows move with the point, the bias row stays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array function of the arrays as the launch finds them. -/
theorem flushed1 (c : Dev nD) (t : Fin cfg1.N) :
    (dat1 V c).flushed 3 t = ((cfg1.win 3).blk t).view.read (Elt Ideal) (dense1 (V c main_v25) (V c main_v14) (V c main_v26)) := by
  show (cfg1.win 3).cut (grid1.coords t) ((dat1 V c).after 3 t) = _
  rw [after1_3]
  unfold out1_3
  rw [View.canon_unit_zero hzero1]
  simp only [View.ld_unit_zero (S := S2000x128) hzero1, View.ld_unit_zero (S := S2000x1) hzero1, View.ld_unit_zero (S := S1x128) hzero1]
  obtain ⟨e00, e01, e10, e11, e20, e21, e30, e31⟩ := idx_facts1 t
  funext j
  show k1_pay1 (iblk1 V c 0 t) (iblk1 V c 1 t) (iblk1 V c 2 t) j
    = dense1 (V c main_v25) (V c main_v14) (V c main_v26) (((cfg1.win 3).blk t).view.emb j)
  refine point1 _ _ _ _ _ _ j _ (fun k => ?_) ?_ (fun k => ?_) ?_
  · show V c main_v25 (((cfg1.win 0).blk t).view.emb (ix2 (j 0) k)) = V c main_v25 (ix2 ((((cfg1.win 3).blk t).view.emb j) 0) k)
    refine congrArg _ (funext fun a => Fin.ext ?_)
    match a with
    | ⟨0, _⟩ =>
      show win1_0.index t (0 : Fin 2) * 2000 + 1 * (j 0).val = win1_3.index t (0 : Fin 2) * 2000 + 1 * (j 0).val
      omega
    | ⟨1, _⟩ =>
      show win1_0.index t (1 : Fin 2) * 128 + 1 * k.val = k.val
      omega
  · show V c main_v14 (((cfg1.win 1).blk t).view.emb (ix2 (j 0) (0 : Fin 1))) = V c main_v14 (ix2 ((((cfg1.win 3).blk t).view.emb j) 0) (0 : Fin 1))
    refine congrArg _ (funext fun a => Fin.ext ?_)
    match a with
    | ⟨0, _⟩ =>
      show win1_1.index t (0 : Fin 2) * 2000 + 1 * (j 0).val = win1_3.index t (0 : Fin 2) * 2000 + 1 * (j 0).val
      omega
    | ⟨1, _⟩ =>
      show win1_1.index t (1 : Fin 2) * 1 + 1 * 0 = 0
      omega
  · show V c main_v26 (((cfg1.win 2).blk t).view.emb (ix2 (0 : Fin 1) k)) = V c main_v26 (ix2 (0 : Fin 1) k)
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  · show (j 1).val = win1_3.index t (1 : Fin 2) * 128 + 1 * (j 1).val
    omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Every row of the output is in the block of the point that is its number divided by 2000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have hlt : (i 0).val / 2000 < cfg1.N := by omega
  obtain ⟨-, -, -, -, -, -, e30, e31⟩ := idx_facts1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win1_3.index ⟨(i 0).val / 2000, hlt⟩ (1 : Fin 2) * 128 ≤ (i 1).val ∧ (i 1).val < win1_3.index ⟨(i 0).val / 2000, hlt⟩ (1 : Fin 2) * 128 + 128
    omega

/-- The output array after the launch: the whole-array function of the arrays as the launch finds them. -/
theorem final1 (c : Dev nD) : (dat1 V c).arrAt 3 cfg1.N = dense1 (V c main_v25) (V c main_v14) (V c main_v26) :=
  (dat1 V c).arrAt_eq_of_cover 3 _ (fun t _ => flushed1 V c t) cover1

end Cert.KernelIdeal.Net

end
-- ==== Proof.Region2.lean ====
/-
  The third launch: the second dense product scaled row by row. Its output array is ONE function of the three arrays
  it reads: entry (r, q) is   (Σ_k h[r, k] · w[k, q]) · d[r, 0],   h the [100000, 128] hidden activations (staged
  2000 rows at a time), w the [128, 32] weights (staged whole), d the [100000, 1] column of row factors. Point t
  reads and writes rows 2000·t … 2000·t + 1999; the rounding to the narrow format before the matrix unit is the
  identity on extended reals and the product into a zero accumulator is the plain sum over the contracted axis.
-/
import proofs.«114669_j11862699671726_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«114669_j11862699671726_2_alg».proof.Proof.LibMatProd
import proofs.«114669_j11862699671726_2_alg».proof.Proof.LibKeepdims
set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

open Cert.Gcn.Dense Cert.Keepdims

theorem hzero2 : (![0, 0] : Fin 2 → Nat) = fun _ => 0 := funext fun a => by fin_cases a <;> rfl

/-- The array the third launch leaves: the dense product of `A0` and `A1`, row `r` scaled by `A2 (r, 0)`. -/
def dense2 (A0 : S100000x128.Idx → EReal) (A1 : S128x32.Idx → EReal) (A2 : S100000x1.Idx → EReal) : S100000x32.Idx → EReal :=
  fun i => (∑ j : Fin 128, A0 (ix2 (i 0) j) * A1 (ix2 j (i 1))) * A2 (ix2 (i 0) (0 : Fin 1))

theorem dot2_l0 (i : S2000x32.Idx) (q : dot_S2000x128_S128x32_S2000x32_1_0_0_1_n_n.contr.Idx) :
    (dot_S2000x128_S128x32_S2000x32_1_0_0_1_n_n.lhsIdx i q 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
theorem dot2_r1 (i : S2000x32.Idx) (q : dot_S2000x128_S128x32_S2000x32_1_0_0_1_n_n.contr.Idx) :
    (dot_S2000x128_S128x32_S2000x32_1_0_0_1_n_n.rhsIdx i q 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-- The body's stored value at row `p`, column `q` of the block: the row of the first operand against the column of the
    second, times the row's factor. -/
theorem pay2_apply (x0 : Vec Ideal S2000x128 .f32) (x1 : Vec Ideal S128x32 .f32) (x2 : Vec Ideal S2000x1 .f32) (p : Fin 2000) (q : Fin 32) :
    k2_pay1 (F := Ideal) x0 x1 x2 (ix2 p q) = (∑ j : Fin 128, x0 (ix2 p j) * x1 (ix2 j q)) * x2 (ix2 p (0 : Fin 1)) := by
  unfold k2_pay1
  rw [shapeCast_self x0 shapeCasts_S2000x128_S2000x128]
  refine congrArg₂ (· * ·) ?_ ?_
  · refine (Ideal.matmul_constant_zero_apply dot_S2000x128_S128x32_S2000x32_1_0_0_1_n_n none _ _ (ix2 p q)).trans ?_
    exact sum_contr_eq_prod dot_S2000x128_S128x32_S2000x32_1_0_0_1_n_n rfl rfl dot2_l0
      (fun i k => dot_S2000x128_S128x32_S2000x32_1_0_0_1_n_n.lhsIdx_val_of_single rfl i k)
      (fun i k => dot_S2000x128_S128x32_S2000x32_1_0_0_1_n_n.rhsIdx_val_of_single rfl i k) dot2_r1 x0 x1 (ix2 p q)
  · refine (broadcastTo_a1_ab_apply _ broadcasts_S2000x1_S2000x32 p q).trans ?_
    exact congrFun (shapeCast_self x2 shapeCasts_S2000x1_S2000x1) _

/-- One element of one point's block is the element of the whole-array function at the place the block sits, when
    the loaded blocks hold the arrays' entries at the matching places. -/
theorem point2 (x0 : Vec Ideal S2000x128 .f32) (x1 : Vec Ideal S128x32 .f32) (x2 : Vec Ideal S2000x1 .f32)
    (A0 : S100000x128.Idx → EReal) (A1 : S128x32.Idx → EReal) (A2 : S100000x1.Idx → EReal)
    (y : S2000x32.Idx) (i : S100000x32.Idx)
    (h0 : ∀ k : Fin 128, x0 (ix2 (y 0) k) = A0 (ix2 (i 0) k))
    (h1 : ∀ (k : Fin 128) (q : Fin 32), x1 (ix2 k q) = A1 (ix2 k q))
    (h2 : x2 (ix2 (y 0) (0 : Fin 1)) = A2 (ix2 (i 0) (0 : Fin 1)))
    (hq : (y 1).val = (i 1).val) :
    k2_pay1 (F := Ideal) x0 x1 x2 y = dense2 A0 A1 A2 i := by
  obtain ⟨p, q, rfl⟩ : ∃ (p : Fin 2000) (q : Fin 32), y = ix2 p q := ⟨y 0, y 1, eq_ix2 y⟩
  have h0' : ∀ k : Fin 128, x0 (ix2 p k) = A0 (ix2 (i 0) k) := h0
  have h2' : x2 (ix2 p (0 : Fin 1)) = A2 (ix2 (i 0) (0 : Fin 1)) := h2
  have hq' : q = i 1 := Fin.ext hq
  rw [pay2_apply]
  unfold dense2
  rw [h2']
  refine congrArg (· * _) (Finset.sum_congr rfl fun k _ => ?_)
  rw [h0' k, h1 k, hq']

/-- The block indices over the grid: the row-blocked windows move with the point, the weights stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole-array function of the arrays as the launch finds them. -/
theorem flushed2 (c : Dev nD) (t : Fin cfg2.N) :
    (dat2 V c).flushed 3 t = ((cfg2.win 3).blk t).view.read (Elt Ideal) (dense2 (V c main_v27) (V c main_arg3) (V c main_v14)) := by
  show (cfg2.win 3).cut (grid2.coords t) ((dat2 V c).after 3 t) = _
  rw [after2_3]
  unfold out2_3
  rw [View.canon_unit_zero hzero2]
  simp only [View.ld_unit_zero (S := S2000x128) hzero2, View.ld_unit_zero (S := S128x32) hzero2, View.ld_unit_zero (S := S2000x1) hzero2]
  obtain ⟨e00, e01, e10, e11, e20, e21, e30, e31⟩ := idx_facts2 t
  funext j
  show k2_pay1 (iblk2 V c 0 t) (iblk2 V c 1 t) (iblk2 V c 2 t) j
    = dense2 (V c main_v27) (V c main_arg3) (V c main_v14) (((cfg2.win 3).blk t).view.emb j)
  refine point2 _ _ _ _ _ _ j _ (fun k => ?_) (fun k q => ?_) ?_ ?_
  · show V c main_v27 (((cfg2.win 0).blk t).view.emb (ix2 (j 0) k)) = V c main_v27 (ix2 ((((cfg2.win 3).blk t).view.emb j) 0) k)
    refine congrArg _ (funext fun a => Fin.ext ?_)
    match a with
    | ⟨0, _⟩ =>
      show win2_0.index t (0 : Fin 2) * 2000 + 1 * (j 0).val = win2_3.index t (0 : Fin 2) * 2000 + 1 * (j 0).val
      omega
    | ⟨1, _⟩ =>
      show win2_0.index t (1 : Fin 2) * 128 + 1 * k.val = k.val
      omega
  · show V c main_arg3 (((cfg2.win 1).blk t).view.emb (ix2 k q)) = V c main_arg3 (ix2 k q)
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 32 + 1 * q.val = q.val
      omega
  · show V c main_v14 (((cfg2.win 2).blk t).view.emb (ix2 (j 0) (0 : Fin 1))) = V c main_v14 (ix2 ((((cfg2.win 3).blk t).view.emb j) 0) (0 : Fin 1))
    refine congrArg _ (funext fun a => Fin.ext ?_)
    match a with
    | ⟨0, _⟩ =>
      show win2_2.index t (0 : Fin 2) * 2000 + 1 * (j 0).val = win2_3.index t (0 : Fin 2) * 2000 + 1 * (j 0).val
      omega
    | ⟨1, _⟩ =>
      show win2_2.index t (1 : Fin 2) * 1 + 1 * 0 = 0
      omega
  · show (j 1).val = win2_3.index t (1 : Fin 2) * 32 + 1 * (j 1).val
    omega

/-- An index of the output array is in point `t`'s block iff each coordinate is in the block's range on its axis. -/
theorem mem_blk2 (t : Fin cfg2.N) (i : S100000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole main_v28).slice (win2_3.rect t)).set ↔ _
  rw [View.set_slice_whole, Rect.mem_set_unit]
  exact Iff.rfl

/-- Every row of the output is in the block of the point that is its number divided by 2000. -/
theorem cover2 (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 50 := N_2
  have hlt : (i 0).val / 2000 < cfg2.N := by omega
  obtain ⟨-, -, -, -, -, -, e30, e31⟩ := idx_facts2 ⟨(i 0).val / 2000, hlt⟩
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win2_3.index ⟨(i 0).val / 2000, hlt⟩ (1 : Fin 2) * 32 ≤ (i 1).val ∧ (i 1).val < win2_3.index ⟨(i 0).val / 2000, hlt⟩ (1 : Fin 2) * 32 + 32
    omega

/-- The output array after the launch: the whole-array function of the arrays as the launch finds them. -/
theorem final2 (c : Dev nD) : (dat2 V c).arrAt 3 cfg2.N = dense2 (V c main_v27) (V c main_arg3) (V c main_v14) :=
  (dat2 V c).arrAt_eq_of_cover 3 _ (fun t _ => flushed2 V c t) cover2

end Cert.KernelIdeal.Net

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«114669_j11862699671726_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.LibGcnLayer.lean ====
/-
  One graph-convolution layer with symmetric normalisation, in the two arrangements the two programs use, and the
  two-layer network they both compute.

  Nodes are r < N, edges e < M (the given edges followed by one self-loop per node). Edge e reads node `s e` (its
  source index, read signed and clamped into the node range) and is added into node `d e` (its target index, read
  signed; an edge whose target is not a node is dropped). With  c r = 1/√(deg r)  (0 where the degree is not positive)
  the layer sends a node array xw to
        out[r, k] = c r · Σ_{e lands on r} xw[s e, k] · c (s e).
  * The kernel's program scales the node array by c BEFORE the gather, adds the gathered rows, and scales the sums
    by c AFTER: literally the formula above.
  * The reference scales every gathered row by the edge weight  c (s e) · c (d' e),  d' e the target index read
    signed with a negative index wrapped, clamped — and adds. For an edge that lands on r the target IS r, so the
    weight is c (s e) · c r, and the factor c r, a non-negative real, comes out of the sum: on the extended reals
    a factor 0 ≤ c < ⊤ distributes over a finite sum whatever the summands are.
  No finiteness of the node array is needed.
  Stated for any numbers of nodes N, edges M and columns C and any index width (the network `gcn` with 64 → 64 → 32
  features, `clampRow_of_wrapped` for 100000 nodes and 32-bit indices); the records of the gathers and scatters enter as
  parameters with an equation to the row forms of the scatter / gather lemma file this module imports.
-/
import Idealize.ShloMosaic.PureOps.Ideal
import Idealize.ShloMosaic.PureOps.Ideal.Laws
import Idealize.ShloMosaic.Lib.ValueIdx
import proofs.«114669_j11862699671726_2_alg».proof.Proof.LibScatterGather
import proofs.«114669_j11862699671726_2_alg».proof.Proof.LibGraphMean

noncomputable section

namespace Cert.Gcn

open Idealize.ShloMosaic Idealize.ShloMosaic.ValueIdx Cert.ScatterGather Cert.GraphMean

/-! ## The normalising factor -/

/-- `1/√d` where `d > 0`, else `0`: the factor of a node of degree `d`, as both programs select it. -/
def invSqrtDeg (d : EReal) : EReal := Scalar.select (Ideal.cmp .ogt d 0) (Ideal.rsqrt d) 0

/-- The factor is a non-negative real whatever the degree is: the inverse root of a positive real is a positive
    real, that of `⊤` is `0`, and where the degree is not positive the factor is `0`. -/
theorem invSqrtDeg_nonneg_ne_top (d : EReal) : 0 ≤ invSqrtDeg d ∧ invSqrtDeg d ≠ ⊤ := by
  unfold invSqrtDeg Ideal.cmp
  by_cases h : (0 : EReal) < d
  · rw [show (BitVec.ofBool (decide ((0 : EReal) < d))) = 1#1 by simp [h], select_one]
    induction d using EReal.rec with
    | bot => exact absurd h (by simp)
    | top => rw [Ideal.rsqrt_top]; exact ⟨le_refl _, EReal.zero_ne_top⟩
    | coe r =>
      have hr : (0 : ℝ) < r := by exact_mod_cast h
      rw [Ideal.rsqrt_coe, if_neg (not_lt.mpr hr.le), if_neg hr.ne']
      exact ⟨by exact_mod_cast inv_nonneg.mpr (Real.sqrt_nonneg _), EReal.coe_ne_top _⟩
  · rw [show (BitVec.ofBool (decide ((0 : EReal) < d))) = 0#1 by simp [h], select_zero]
    exact ⟨le_refl _, EReal.zero_ne_top⟩

variable {N M C w : Nat}

/-! ## The two gathers at explicit coordinates -/

/-- The row gather at edge `e`, column `k`: the operand's row `s e`, column `k`. -/
theorem gather_rows_at {α : Type} (hN : 0 < N)
    (wfg : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowsDims N M C wfg) x idx (ix2 e k) = x (ix2 (clampRow N hN idx e) k) :=
  gather_rows_apply hN wfg x idx (ix2 e k)

/-- The vector gather at edge `e`: the operand at `s e`. -/
theorem gather_flat_at {α : Type} (hN : 0 < N)
    (wfv : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wfv) x idx (ix1 e) = x (ix1 (clampRow N hN idx e)) :=
  gather_flat_apply hN wfv x idx (ix1 e)

/-! ## The layer -/

/-- One normalised layer at node `r`, column `k`: `c r · Σ_{e lands on r} xw[s e, k] · c (s e)`. -/
def layer (hN : 0 < N) (c : Fin N → EReal) (S D : IVec ⟨2, ![M, 1]⟩ w) (xw : Fin N → Fin C → EReal)
    (r : Fin N) (k : Fin C) : EReal :=
  c r * ∑ e ∈ landing D r, xw (clampRow N hN S e) k * c (clampRow N hN S e)

/-- THE KERNEL'S ARRANGEMENT. The node array scaled by the factor (carried as the array `CB1`, constant along
    rows), rounded to the narrow format (the identity on extended reals), gathered along the sources, widened,
    added into zeros along the targets, scaled again (`CB2`): the layer. -/
theorem layer_of_prescaled (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (XW CB1 CB2 : FVec Ideal ⟨2, ![N, C]⟩ .f32) (c : Fin N → EReal)
    (hCB1 : ∀ r k, CB1 (ix2 r k) = c r) (hCB2 : ∀ r k, CB2 (ix2 r k) = c r)
    (S D : IVec ⟨2, ![M, 1]⟩ w) (hb : FTy.bits .bf16 < FTy.bits .f32) (r : Fin N) (k : Fin C) :
    mulf CB2 (Host.scatterAdd (F := Ideal) sd Z D
        (extf .f32 (Host.gather gd (truncf .bf16 (mulf XW CB1) hb) S) hb)) (ix2 r k)
      = layer hN c S D (fun r k => XW (ix2 r k)) r k := by
  subst hgd hsd hZ
  rw [mulf_apply, hCB2]
  show c r * Ideal.hostScatterAdd (rowsScatter N M C wfs) (fun _ => 0) D _ (ix2 r k) = _
  rw [scatter_rows_apply]
  unfold layer
  refine congrArg _ (Finset.sum_congr rfl fun e _ => ?_)
  rw [extf_apply, gather_rows_at hN wfg, truncf_apply, mulf_apply, hCB1]

/-- THE REFERENCE'S ARRANGEMENT. The node array gathered along the sources, every gathered row scaled by its
    edge's weight `c (s e) · c (d' e)` (carried as the array `NB`, constant along rows; the two factors gathered
    from the vector `cv`), added into zeros along the targets: the layer, when an edge that lands on node `r` has
    `d' e = r` and the factors are non-negative reals. -/
theorem layer_of_edge_weights (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (gv : GatherDims ⟨1, ![N]⟩ ⟨2, ![M, 1]⟩ ⟨1, ![M]⟩)
    (wfv : GatherDims.WF ⟨1, ![N]⟩ ⟨2, ![M, 1]⟩ ⟨1, ![M]⟩ [] [0] [] [0] [] 1 ![1]) (hgv : gv = flatDims N M wfv)
    (Z : FVec Ideal ⟨2, ![N, C]⟩ .f32) (hZ : Z = fun _ => 0)
    (XW : FVec Ideal ⟨2, ![N, C]⟩ .f32) (cv : FVec Ideal ⟨1, ![N]⟩ .f32) (c : Fin N → EReal)
    (hcv : ∀ r, cv (ix1 r) = c r) (hc : ∀ r, 0 ≤ c r ∧ c r ≠ ⊤)
    (S D D' : IVec ⟨2, ![M, 1]⟩ w)
    (hD' : ∀ (e : Fin M) (r : Fin N), (D (ix2 e (0 : Fin 1))).toInt = (r.val : Int) → clampRow N hN D' e = r)
    (NB : FVec Ideal ⟨2, ![M, C]⟩ .f32)
    (hNB : ∀ e k, NB (ix2 e k) = mulf (Host.gather gv cv S) (Host.gather gv cv D') (ix1 e))
    (r : Fin N) (k : Fin C) :
    Host.scatterAdd (F := Ideal) sd Z D (mulf (Host.gather gd XW S) NB) (ix2 r k)
      = layer hN c S D (fun r k => XW (ix2 r k)) r k := by
  subst hgd hsd hgv hZ
  show Ideal.hostScatterAdd (rowsScatter N M C wfs) (fun _ => 0) D _ (ix2 r k) = _
  rw [scatter_rows_apply]
  unfold layer
  rw [mul_comm, sum_mul_of_nonneg_ne_top _ _ (hc r).1 (hc r).2]
  refine Finset.sum_congr rfl fun e he => ?_
  have hland : (D (ix2 e (0 : Fin 1))).toInt = (r.val : Int) := (Finset.mem_filter.mp he).2
  rw [mulf_apply, gather_rows_at hN wfg, hNB, mulf_apply, gather_flat_at hN wfv, gather_flat_at hN wfv,
    hcv, hcv, hD' e r hland, mul_assoc]

/-! ## The network -/

/-- The two-layer network at node `r`, class `q`: the layer of `x0 · x2`, plus the bias `x3`, clipped below at zero,
    projected by `x4`, the layer again, plus the bias `x5`. -/
def gcn (hN : 0 < N) (c : Fin N → EReal) (S D : IVec ⟨2, ![M, 1]⟩ w)
    (x0 : (⟨2, ![N, 64]⟩ : Shape).Idx → EReal) (x2 : (⟨2, ![64, 64]⟩ : Shape).Idx → EReal)
    (x3 : (⟨1, ![64]⟩ : Shape).Idx → EReal) (x4 : (⟨2, ![64, 32]⟩ : Shape).Idx → EReal)
    (x5 : (⟨1, ![32]⟩ : Shape).Idx → EReal) (r : Fin N) (q : Fin 32) : EReal :=
  layer hN c S D (fun r q => ∑ k : Fin 64,
      max (layer hN c S D (fun r k => ∑ j : Fin 64, x0 (ix2 r j) * x2 (ix2 j k)) r k + x3 (ix1 k)) 0 * x4 (ix2 k q)) r q
    + x5 (ix1 q)

/-! ## Two small facts both programs' readings use -/

/-- The zero word broadcast to any shape is the zero array. -/
theorem bcast_zero_f32 {t : Shape} (h : (⟨0, ![]⟩ : Shape).BroadcastsInDim t (![] : Fin 0 → Fin t.rank)) :
    broadcastInDim t ![] h (constant (F := Ideal) ⟨0, ![]⟩ .f32 0x00000000#32) = fun _ => 0 := by
  funext i
  unfold broadcastInDim
  exact Ideal.ofBits_zero_f32

/-- A target index that names node `r` of 100000 is left alone by the wrap of negative indices
    (`b < 0 ? b + 100000 : b`) and by the clamp into the node range: the reference's second factor of an edge that
    lands on `r` is read at `r`. -/
theorem clampRow_of_wrapped (D D' : IVec ⟨2, ![M, 1]⟩ 32) (e : Fin M) (r : Fin 100000)
    (hw : D' (ix2 e (0 : Fin 1)) = Scalar.select (IntOp.cmpi .slt (D (ix2 e (0 : Fin 1))) 0#32)
      (IntOp.addi (D (ix2 e (0 : Fin 1))) 100000#32) (D (ix2 e (0 : Fin 1))))
    (hr : (D (ix2 e (0 : Fin 1))).toInt = (r.val : Int)) :
    clampRow 100000 (by decide) D' e = r := by
  have hlt : r.val < 100000 := r.isLt
  have hns : (D (ix2 e (0 : Fin 1))).slt 0#32 = false := by
    rw [BitVec.slt, hr]; simp
  have hsel : D' (ix2 e (0 : Fin 1)) = D (ix2 e (0 : Fin 1)) := by
    rw [hw]; unfold IntOp.cmpi; rw [hns]; exact select_zero _ _
  refine Fin.ext ?_
  show min (D' (ix2 e (0 : Fin 1))).toInt.toNat (100000 - 1) = r.val
  rw [hsel, hr]
  omega

end Cert.Gcn

end
-- ==== Proof.GcnSpec.lean ====
/-
  The two-layer graph network both programs compute, node by node, on the extended reals.

  Edges e < 1600000 read node `s e` (the source index, read signed and clamped) and are added into the node whose number
  their target index, read signed, is (an edge whose target is no node is dropped). With a factor `c r` per node,
  one layer sends a node array xw to
        layer[r, k] = c r · Σ_{e lands on r} xw[s e, k] · c (s e).
  The network is
        hidden[r, k] = max (layer (x · W1)[r, k] + b1[k]) 0
        logits[r, q] = layer (hidden · W2)[r, q] + b2[q]
        net[r, q]    = (logits[r, q] − top r) − log Σ_q' exp (logits[r, q'] − top r),   top r the greatest logit of row r.
  Also here: the arrangement in which the node array is scaled by the factor row by row BEFORE the gather and the sums are
  scaled by it AFTER (that is the layer, literally), and the two readings of the row's greatest entry (the fold of max
  from the pattern of −∞, and the maximum of that pattern with the fold) as one number.
-/
import Idealize.ShloMosaic.PureOps.Ideal
import Idealize.ShloMosaic.PureOps.Ideal.Laws
import Idealize.ShloMosaic.Lib.ValueIdx
import proofs.«114669_j11862699671726_2_alg».proof.Proof.LibScatterGather
import proofs.«114669_j11862699671726_2_alg».proof.Proof.LibGraphMean
import proofs.«114669_j11862699671726_2_alg».proof.Proof.LibGcnLayer

noncomputable section

namespace Cert.GcnNet

open Idealize.ShloMosaic Idealize.ShloMosaic.ValueIdx Cert.ScatterGather Cert.GraphMean Cert.Gcn

/-! ## A row's log-softmax -/

/-- The greatest entry of a row: the fold of `max` from the pattern of −∞. -/
def rowTop {C : Nat} (z : Fin C → EReal) : EReal :=
  (Finset.univ : Finset (Fin C)).fold max (Ideal.ofBits .f32 0xFF800000#32) z

/-- The pattern the fold starts from is below the fold, so taking the maximum with it again changes nothing. -/
theorem max_init_rowTop {C : Nat} (z : Fin C → EReal) : max (Ideal.ofBits .f32 0xFF800000#32) (rowTop z) = rowTop z :=
  max_eq_right ((Finset.le_fold_max _).mpr (Or.inl le_rfl))

/-- The log-softmax of a row at column `q`: the entry less the row's top, less the log of the sum of the exponentials
    of the shifted entries. -/
def logSoftmaxRow {C : Nat} (z : Fin C → EReal) (q : Fin C) : EReal :=
  (z q - rowTop z) - Ideal.log (∑ k : Fin C, Ideal.exp (z k - rowTop z))

/-! ## The network -/

section Net

variable (c : Fin 100000 → EReal) (S D : IVec ⟨2, ![1600000, 1]⟩ 32)
  (x : (⟨2, ![100000, 256]⟩ : Shape).Idx → EReal) (w1 : (⟨2, ![256, 128]⟩ : Shape).Idx → EReal)
  (b1 : (⟨1, ![128]⟩ : Shape).Idx → EReal) (w2 : (⟨2, ![128, 32]⟩ : Shape).Idx → EReal)
  (b2 : (⟨1, ![32]⟩ : Shape).Idx → EReal)

/-- The first dense product, `(x · W1)[r, k]`. -/
def proj1 (r : Fin 100000) (k : Fin 128) : EReal := ∑ j : Fin 256, x (ix2 r j) * w1 (ix2 j k)

/-- The hidden activations: the first layer plus its bias, clipped below at zero. -/
def hidden (r : Fin 100000) (k : Fin 128) : EReal :=
  max (layer (N := 100000) (by decide) c S D (proj1 x w1) r k + b1 (ix1 k)) 0

/-- The second dense product, `(hidden · W2)[r, q]`. -/
def proj2 (r : Fin 100000) (q : Fin 32) : EReal := ∑ k : Fin 128, hidden c S D x w1 b1 r k * w2 (ix2 k q)

/-- The second layer plus its bias. -/
def logits (r : Fin 100000) (q : Fin 32) : EReal :=
  layer (N := 100000) (by decide) c S D (proj2 c S D x w1 b1 w2) r q + b2 (ix1 q)

/-- The network's output at node `r`, class `q`. -/
def net (r : Fin 100000) (q : Fin 32) : EReal := logSoftmaxRow (logits c S D x w1 b1 w2 b2 r) q

end Net

/-! ## The arrangement that scales the rows before the gather and the sums after -/

/-- A node array `HS` whose row `r` is the row of `xw` times `c r`, gathered along the sources, added into zeros along
    the targets, each sum then times `c r`: the layer. -/
theorem layer_of_scaled_rows {N M C w : Nat} (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (HS : FVec Ideal ⟨2, ![N, C]⟩ .f32) (xw : Fin N → Fin C → EReal) (c : Fin N → EReal)
    (hHS : ∀ r k, HS (ix2 r k) = xw r k * c r)
    (S D : IVec ⟨2, ![M, 1]⟩ w) (r : Fin N) (k : Fin C) :
    Host.scatterAdd (F := Ideal) sd Z D (Host.gather gd HS S) (ix2 r k) * c r = layer hN c S D xw r k := by
  subst hgd hsd hZ
  show Ideal.hostScatterAdd (rowsScatter N M C wfs) (fun _ => 0) D _ (ix2 r k) * c r = _
  rw [scatter_rows_apply]
  unfold layer
  rw [mul_comm]
  refine congrArg _ (Finset.sum_congr rfl fun e _ => ?_)
  rw [gather_rows_at hN wfg, hHS]

/-- The layer depends on the node array only through its entries. -/
theorem layer_congr {N M C w : Nat} (hN : 0 < N) (c : Fin N → EReal) (S D : IVec ⟨2, ![M, 1]⟩ w)
    (xw xw' : Fin N → Fin C → EReal) (h : ∀ r k, xw r k = xw' r k) (r : Fin N) (k : Fin C) :
    layer hN c S D xw r k = layer hN c S D xw' r k := by
  have : xw = xw' := funext fun r => funext fun k => h r k
  rw [this]

end Cert.GcnNet

end
-- ==== Proof.Region3.lean ====
/-
  The fourth launch: the second layer's epilogue and the row-wise log-softmax. Its output array is ONE function of the
  three arrays it reads: with   z[r, q] = a[r, q] · d[r, 0] + b[0, q]   (a the [100000, 32] aggregated rows, d the
  [100000, 1] column of row factors, b the [1, 32] bias row), entry (r, q) is
      (z[r, q] − top r) − log Σ_q' exp (z[r, q'] − top r),      top r the greatest entry of row r.
  The lane maximum and the lane sum of a [2000, 32] block, read at a row, are the fold of max and the sum over that
  row; the keep-dims column and its broadcast put the row's value back in every column.
-/
import proofs.«114669_j11862699671726_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«114669_j11862699671726_2_alg».proof.Proof.LibKeepdims
import proofs.«114669_j11862699671726_2_alg».proof.Proof.LibRowReads
import proofs.«114669_j11862699671726_2_alg».proof.Proof.GcnSpec
set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

open Cert.Keepdims Cert.RowReads Cert.GcnNet

theorem hzero3 : (![0, 0] : Fin 2 → Nat) = fun _ => 0 := funext fun a => by fin_cases a <;> rfl

/-- The array the fourth launch leaves: scale the rows, add the bias row, take each row's log-softmax. -/
def dense3 (A0 : S100000x32.Idx → EReal) (A1 : S100000x1.Idx → EReal) (A2 : S1x32.Idx → EReal) : S100000x32.Idx → EReal :=
  fun i => logSoftmaxRow (fun k : Fin 32 => A0 (ix2 (i 0) k) * A1 (ix2 (i 0) (0 : Fin 1)) + A2 (ix2 (0 : Fin 1) k)) (i 1)

/-- Each row's greatest entry, put back in every column of the row. -/
def topCols (v : FVec Ideal S2000x32 .f32) : FVec Ideal S2000x32 .f32 :=
  broadcastTo S2000x32 (shapeCast S2000x1 (multiReduction .maximumf [1] S2000 v 0xFF800000#32 reduces_S2000x32_S2000 (.inl rfl) rfl) shapeCasts_S2000_S2000x1) broadcasts_S2000x1_S2000x32

theorem topCols_apply (v : FVec Ideal S2000x32 .f32) (p : Fin 2000) (k : Fin 32) :
    topCols v (ix2 p k) = rowTop (fun k' : Fin 32 => v (ix2 p k')) := by
  unfold topCols
  refine (broadcastTo_a1_ab_apply _ broadcasts_S2000x1_S2000x32 p k).trans ?_
  refine (shapeCast_a_a1_apply _ shapeCasts_S2000_S2000x1 p (0 : Fin 1)).trans ?_
  exact rowMax_apply v 0xFF800000#32 reduces_S2000x32_S2000 (.inl rfl) rfl p

/-- The log of each row's sum of exponentials, put back in every column of the row. -/
def lseCols (u : FVec Ideal S2000x32 .f32) : FVec Ideal S2000x32 .f32 :=
  broadcastTo S2000x32 (log (shapeCast S2000x1 (multiReduction .add [1] S2000 (exp u) 0x00000000#32 reduces_S2000x32_S2000 (.inl rfl) rfl) shapeCasts_S2000_S2000x1)) broadcasts_S2000x1_S2000x32

theorem lseCols_apply (u : FVec Ideal S2000x32 .f32) (p : Fin 2000) (k : Fin 32) :
    lseCols u (ix2 p k) = Ideal.log (∑ k' : Fin 32, Ideal.exp (u (ix2 p k'))) := by
  unfold lseCols
  refine (broadcastTo_a1_ab_apply _ broadcasts_S2000x1_S2000x32 p k).trans ?_
  show Ideal.log (shapeCast S2000x1 (multiReduction .add [1] S2000 (exp u) 0x00000000#32 reduces_S2000x32_S2000 (.inl rfl) rfl) shapeCasts_S2000_S2000x1 (ix2 p (0 : Fin 1))) = _
  refine congrArg Ideal.log ?_
  refine (shapeCast_a_a1_apply _ shapeCasts_S2000_S2000x1 p (0 : Fin 1)).trans ?_
  exact rowSum_apply (exp u) 0x00000000#32 reduces_S2000x32_S2000 (.inl rfl) rfl p

/-- The scaled rows plus the bias row, at an index. -/
def affine3 (x0 : Vec Ideal S2000x32 .f32) (x1 : Vec Ideal S2000x1 .f32) (x2 : Vec Ideal S1x32 .f32) : FVec Ideal S2000x32 .f32 :=
  addf (mulf (shapeCast S2000x32 x0 shapeCasts_S2000x32_S2000x32) (broadcastTo S2000x32 (shapeCast S2000x1 x1 shapeCasts_S2000x1_S2000x1) broadcasts_S2000x1_S2000x32))
    (broadcastTo S2000x32 (shapeCast S1x32 x2 shapeCasts_S1x32_S1x32) broadcasts_S1x32_S2000x32)

theorem affine3_apply (x0 : Vec Ideal S2000x32 .f32) (x1 : Vec Ideal S2000x1 .f32) (x2 : Vec Ideal S1x32 .f32) (p : Fin 2000) (k : Fin 32) :
    affine3 x0 x1 x2 (ix2 p k) = x0 (ix2 p k) * x1 (ix2 p (0 : Fin 1)) + x2 (ix2 (0 : Fin 1) k) := by
  unfold affine3
  refine congrArg₂ (· + ·) (congrArg₂ (· * ·) ?_ ?_) ?_
  · exact congrFun (shapeCast_self x0 shapeCasts_S2000x32_S2000x32) _
  · refine (broadcastTo_a1_ab_apply _ broadcasts_S2000x1_S2000x32 p k).trans ?_
    exact congrFun (shapeCast_self x1 shapeCasts_S2000x1_S2000x1) _
  · refine (broadcastTo_1b_ab_apply _ broadcasts_S1x32_S2000x32 p k).trans ?_
    exact congrFun (shapeCast_self x2 shapeCasts_S1x32_S1x32) _

/-- The body's stored value is the shifted rows less the log-sum column. -/
theorem pay3_eq (x0 : Vec Ideal S2000x32 .f32) (x1 : Vec Ideal S2000x1 .f32) (x2 : Vec Ideal S1x32 .f32) :
    k3_pay1 (F := Ideal) x0 x1 x2
      = subf (subf (affine3 x0 x1 x2) (topCols (affine3 x0 x1 x2))) (lseCols (subf (affine3 x0 x1 x2) (topCols (affine3 x0 x1 x2)))) := rfl

/-- The body's stored value at row `p`, column `q` of the block: the log-softmax of the row. -/
theorem pay3_apply (x0 : Vec Ideal S2000x32 .f32) (x1 : Vec Ideal S2000x1 .f32) (x2 : Vec Ideal S1x32 .f32) (p : Fin 2000) (q : Fin 32) :
    k3_pay1 (F := Ideal) x0 x1 x2 (ix2 p q)
      = logSoftmaxRow (fun k : Fin 32 => x0 (ix2 p k) * x1 (ix2 p (0 : Fin 1)) + x2 (ix2 (0 : Fin 1) k)) q := by
  rw [pay3_eq]
  have hrow : (fun k : Fin 32 => affine3 x0 x1 x2 (ix2 p k)) = fun k : Fin 32 => x0 (ix2 p k) * x1 (ix2 p (0 : Fin 1)) + x2 (ix2 (0 : Fin 1) k) :=
    funext fun k => affine3_apply x0 x1 x2 p k
  rw [← hrow]
  generalize affine3 x0 x1 x2 = v
  show (v (ix2 p q) - topCols v (ix2 p q)) - lseCols (subf v (topCols v)) (ix2 p q) = _
  rw [lseCols_apply, topCols_apply]
  unfold logSoftmaxRow
  refine congrArg (fun s => (v (ix2 p q) - rowTop (fun k' : Fin 32 => v (ix2 p k'))) - Ideal.log s) (Finset.sum_congr rfl fun k _ => ?_)
  show Ideal.exp (v (ix2 p k) - topCols v (ix2 p k)) = _
  rw [topCols_apply]

/-- One element of one point's block is the element of the whole-array function at the place the block sits. -/
theorem point3 (x0 : Vec Ideal S2000x32 .f32) (x1 : Vec Ideal S2000x1 .f32) (x2 : Vec Ideal S1x32 .f32)
    (A0 : S100000x32.Idx → EReal) (A1 : S100000x1.Idx → EReal) (A2 : S1x32.Idx → EReal)
    (y : S2000x32.Idx) (i : S100000x32.Idx)
    (h0 : ∀ k : Fin 32, x0 (ix2 (y 0) k) = A0 (ix2 (i 0) k))
    (h1 : x1 (ix2 (y 0) (0 : Fin 1)) = A1 (ix2 (i 0) (0 : Fin 1)))
    (h2 : ∀ k : Fin 32, x2 (ix2 (0 : Fin 1) k) = A2 (ix2 (0 : Fin 1) k))
    (hq : (y 1).val = (i 1).val) :
    k3_pay1 (F := Ideal) x0 x1 x2 y = dense3 A0 A1 A2 i := by
  obtain ⟨p, q, rfl⟩ : ∃ (p : Fin 2000) (q : Fin 32), y = ix2 p q := ⟨y 0, y 1, eq_ix2 y⟩
  have h0' : ∀ k : Fin 32, x0 (ix2 p k) = A0 (ix2 (i 0) k) := h0
  have h1' : x1 (ix2 p (0 : Fin 1)) = A1 (ix2 (i 0) (0 : Fin 1)) := h1
  have hq' : q = i 1 := Fin.ext hq
  rw [pay3_apply]
  unfold dense3
  rw [hq']
  refine congrArg (fun z => logSoftmaxRow z (i 1)) (funext fun k => ?_)
  rw [h0' k, h1', h2 k]

/-- The block indices over the grid: the row-blocked windows move with the point, the bias row stays. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole-array function of the arrays as the launch finds them. -/
theorem flushed3 (c : Dev nD) (t : Fin cfg3.N) :
    (dat3 V c).flushed 3 t = ((cfg3.win 3).blk t).view.read (Elt Ideal) (dense3 (V c main_v38) (V c main_v14) (V c main_v39)) := by
  show (cfg3.win 3).cut (grid3.coords t) ((dat3 V c).after 3 t) = _
  rw [after3_3]
  unfold out3_3
  rw [View.canon_unit_zero hzero3]
  simp only [View.ld_unit_zero (S := S2000x32) hzero3, View.ld_unit_zero (S := S2000x1) hzero3, View.ld_unit_zero (S := S1x32) hzero3]
  obtain ⟨e00, e01, e10, e11, e20, e21, e30, e31⟩ := idx_facts3 t
  funext j
  show k3_pay1 (iblk3 V c 0 t) (iblk3 V c 1 t) (iblk3 V c 2 t) j
    = dense3 (V c main_v38) (V c main_v14) (V c main_v39) (((cfg3.win 3).blk t).view.emb j)
  refine point3 _ _ _ _ _ _ j _ (fun k => ?_) ?_ (fun k => ?_) ?_
  · show V c main_v38 (((cfg3.win 0).blk t).view.emb (ix2 (j 0) k)) = V c main_v38 (ix2 ((((cfg3.win 3).blk t).view.emb j) 0) k)
    refine congrArg _ (funext fun a => Fin.ext ?_)
    match a with
    | ⟨0, _⟩ =>
      show win3_0.index t (0 : Fin 2) * 2000 + 1 * (j 0).val = win3_3.index t (0 : Fin 2) * 2000 + 1 * (j 0).val
      omega
    | ⟨1, _⟩ =>
      show win3_0.index t (1 : Fin 2) * 32 + 1 * k.val = k.val
      omega
  · show V c main_v14 (((cfg3.win 1).blk t).view.emb (ix2 (j 0) (0 : Fin 1))) = V c main_v14 (ix2 ((((cfg3.win 3).blk t).view.emb j) 0) (0 : Fin 1))
    refine congrArg _ (funext fun a => Fin.ext ?_)
    match a with
    | ⟨0, _⟩ =>
      show win3_1.index t (0 : Fin 2) * 2000 + 1 * (j 0).val = win3_3.index t (0 : Fin 2) * 2000 + 1 * (j 0).val
      omega
    | ⟨1, _⟩ =>
      show win3_1.index t (1 : Fin 2) * 1 + 1 * 0 = 0
      omega
  · show V c main_v39 (((cfg3.win 2).blk t).view.emb (ix2 (0 : Fin 1) k)) = V c main_v39 (ix2 (0 : Fin 1) k)
    refine congrArg _ (funext fun a => Fin.ext ?_)
    match a with
    | ⟨0, _⟩ =>
      show win3_2.index t (0 : Fin 2) * 1 + 1 * 0 = 0
      omega
    | ⟨1, _⟩ =>
      show win3_2.index t (1 : Fin 2) * 32 + 1 * k.val = k.val
      omega
  · show (j 1).val = win3_3.index t (1 : Fin 2) * 32 + 1 * (j 1).val
    omega

/-- An index of the output array is in point `t`'s block iff each coordinate is in the block's range on its axis. -/
theorem mem_blk3 (t : Fin cfg3.N) (i : S100000x32.Idx) :
    i ∈ ((cfg3.win 3).blk t).view.set ↔ ∀ a : Fin 2, win3_3.index t a * S2000x32.size a ≤ (i a).val ∧ (i a).val < win3_3.index t a * S2000x32.size a + S2000x32.size a := by
  show i ∈ ((View.whole main_v40).slice (win3_3.rect t)).set ↔ _
  rw [View.set_slice_whole, Rect.mem_set_unit]
  exact Iff.rfl

/-- Every row of the output is in the block of the point that is its number divided by 2000. -/
theorem cover3 (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 50 := N_3
  have hlt : (i 0).val / 2000 < cfg3.N := by omega
  obtain ⟨-, -, -, -, -, -, e30, e31⟩ := idx_facts3 ⟨(i 0).val / 2000, hlt⟩
  refine ⟨⟨(i 0).val / 2000, hlt⟩, flush3_3 _, ?_⟩
  rw [mem_blk3]
  intro a
  match a with
  | ⟨0, _⟩ =>
    show win3_3.index ⟨(i 0).val / 2000, hlt⟩ (0 : Fin 2) * 2000 ≤ (i 0).val ∧ (i 0).val < win3_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, hlt⟩ (1 : Fin 2) * 32 ≤ (i 1).val ∧ (i 1).val < win3_3.index ⟨(i 0).val / 2000, hlt⟩ (1 : Fin 2) * 32 + 32
    omega

/-- The output array after the launch: the whole-array function of the arrays as the launch finds them. -/
theorem final3 (c : Dev nD) : (dat3 V c).arrAt 3 cfg3.N = dense3 (V c main_v38) (V c main_v14) (V c main_v39) :=
  (dat3 V c).arrAt_eq_of_cover 3 _ (fun t _ => flushed3 V c t) cover3

end Cert.KernelIdeal.Net

end
-- ==== Proof.Edges.lean ====
/-
  The edge list and the node factors, as both programs read them from the [2, 1600000] index array `E`:
  * `srcVec E`, `dstVec E`: its two rows, the edges' source and target indices;
  * `wrapIdx v`: an index vector with the negative entries moved up by the number of nodes (`v < 0 ? v + 100000 : v`);
  * `colIdx v`: an index vector carried as a [1600000, 1] column, the form the gathers and scatters take;
  * `degVec E`: ones added into zeros along the targets, the in-degree of every node;
  * `invVec E`: the factor of every node, `1/√(max deg ε)` where the degree is positive and `0` elsewhere;
  * `invCol E`: the factors as a [100000, 1] column.
  The two facts the layer's law needs: every factor is a non-negative real, and an edge whose target index names
  node `r` has its wrapped target index read, clamped, as `r` again.
-/
import proofs.«114669_j11862699671726_2_alg».proof.Proof.Gen.KernelIdeal
import Idealize.ShloMosaic.Lib.Pipeline.Value
import Idealize.ShloMosaic.Lib.ValueIdx
import proofs.«114669_j11862699671726_2_alg».proof.Proof.LibGcnLayer

noncomputable section

namespace Cert.GcnNet

open Cert.KernelIdeal Cert.KernelIdeal.Gen Idealize.ShloMosaic Idealize.ShloMosaic.ValueIdx Cert.ScatterGather Cert.GraphMean Cert.Gcn

/-- The edges' source indices: row 0 of the index array. -/
def srcVec (E : IVec S2x1600000 32) : IVec S1600000 32 :=
  shapeCast S1600000 (extractStridedSlice S1x1600000 ![0, 0] E slices_S2x1600000_S1x1600000_0_0) shapeCasts_S1x1600000_S1600000

/-- The edges' target indices: row 1 of the index array. -/
def dstVec (E : IVec S2x1600000 32) : IVec S1600000 32 :=
  shapeCast S1600000 (extractStridedSlice S1x1600000 ![1, 0] E slices_S2x1600000_S1x1600000_1_0) shapeCasts_S1x1600000_S1600000

/-- Negative indices moved up by the number of nodes. -/
def wrapIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- An index vector as a one-column matrix. -/
def colIdx (v : IVec S1600000 32) : IVec S1600000x1 32 :=
  broadcastInDim S1600000x1 ![0] bcast_S1600000_S1600000x1_0 v

/-- Every node's in-degree: ones added into zeros along the targets. -/
def degVec (E : IVec S2x1600000 32) : FVec Ideal S100000 .f32 :=
  Host.scatterAdd scatter_S100000_S1600000x1_S1600000_n_0_0_1
    (broadcastInDim S100000 ![] bcast_S_S100000 (constant S_ .f32 0x00000000#32)) (colIdx (dstVec E))
    (broadcastInDim S1600000 ![] bcast_S_S1600000 (constant S_ .f32 0x3F800000#32))

/-- Every node's factor. -/
def invVec (E : IVec S2x1600000 32) : FVec Ideal S100000 .f32 :=
  select (cmpf .ogt (degVec E) (broadcastInDim S100000 ![] bcast_S_S100000 (constant S_ .f32 0x00000000#32)))
    (Host.rsqrt (maximumf (degVec E) (broadcastInDim S100000 ![] bcast_S_S100000 (constant S_ .f32 0x2B8CBCCC#32))))
    (broadcastInDim S100000 ![] bcast_S_S100000 (constant S_ .f32 0x00000000#32))

/-- The factors as a column. -/
def invCol (E : IVec S2x1600000 32) : FVec Ideal S100000x1 .f32 :=
  shapeCast S100000x1 (invVec E) shapeCasts_S100000_S100000x1

/-- The factor of node `r`. -/
def fac (E : IVec S2x1600000 32) (r : Fin 100000) : EReal := invVec E (ix1 r)

/-- A column index at `(e, 0)` is the vector's entry `e`. -/
theorem colIdx_apply (v : IVec S1600000 32) (e : Fin 1600000) : colIdx v (ix2 e (0 : Fin 1)) = v (ix1 e) := by
  unfold colIdx
  refine broadcastInDim_apply _ bcast_S1600000_S1600000x1_0 v (ix2 e (0 : Fin 1)) (ix1 e) fun a => ?_
  match a with
  | ⟨0, _⟩ => show e.val = if (1600000 : Nat) = 1 then 0 else e.val; rw [if_neg (by decide)]

/-- A scalar broadcast along the edges reads the scalar. -/
theorem bcastScalar_apply {α : Type} (x : S_.Idx → α) (i : S1600000.Idx) :
    broadcastInDim S1600000 ![] bcast_S_S1600000 x i = x (fun a => a.elim0) :=
  broadcastInDim_apply _ bcast_S_S1600000 x i (fun a => a.elim0) (fun a => a.elim0)

/-- The wrap at edge `e`: the entry, moved up by the number of nodes when it is negative. -/
theorem wrapIdx_apply (v : IVec S1600000 32) (e : Fin 1600000) :
    wrapIdx v (ix1 e) = Scalar.select (IntOp.cmpi .slt (v (ix1 e)) 0#32) (IntOp.addi (v (ix1 e)) 100000#32) (v (ix1 e)) := by
  unfold wrapIdx
  show Scalar.select (IntOp.cmpi .slt (v (ix1 e)) (broadcastInDim S1600000 ![] bcast_S_S1600000 (constantI S_ 32 0#32) (ix1 e)))
      (IntOp.addi (v (ix1 e)) (broadcastInDim S1600000 ![] bcast_S_S1600000 (constantI S_ 32 100000#32) (ix1 e))) (v (ix1 e)) = _
  rw [bcastScalar_apply, bcastScalar_apply]
  rfl

/-- The inverse root of a positive extended real is a non-negative real. -/
theorem rsqrt_pos_nonneg_ne_top (d : EReal) (h : 0 < d) : 0 ≤ Ideal.rsqrt d ∧ Ideal.rsqrt d ≠ ⊤ := by
  induction d using EReal.rec with
  | bot => exact absurd h (by simp)
  | top => rw [Ideal.rsqrt_top]; exact ⟨le_refl _, EReal.zero_ne_top⟩
  | coe r =>
    have hr : (0 : ℝ) < r := by exact_mod_cast h
    rw [Ideal.rsqrt_coe, if_neg (not_lt.mpr hr.le), if_neg hr.ne']
    exact ⟨by exact_mod_cast inv_nonneg.mpr (Real.sqrt_nonneg _), EReal.coe_ne_top _⟩

/-- The selection both programs make — the inverse root of the maximum of the degree and any `eps` where the degree is
    positive, zero elsewhere — is a non-negative real: a positive degree makes the maximum positive. -/
theorem select_rsqrt_nonneg_ne_top (dg eps : EReal) :
    0 ≤ Scalar.select (Ideal.cmp .ogt dg 0) (Ideal.rsqrt (max dg eps)) 0
      ∧ Scalar.select (Ideal.cmp .ogt dg 0) (Ideal.rsqrt (max dg eps)) 0 ≠ ⊤ := by
  unfold Ideal.cmp
  by_cases h : (0 : EReal) < dg
  · rw [show (BitVec.ofBool (decide ((0 : EReal) < dg))) = 1#1 by simp [h], select_one]
    exact rsqrt_pos_nonneg_ne_top _ (lt_of_lt_of_le h (le_max_left _ _))
  · rw [show (BitVec.ofBool (decide ((0 : EReal) < dg))) = 0#1 by simp [h], select_zero]
    exact ⟨le_refl _, EReal.zero_ne_top⟩

/-- The same selection on vectors, read at node `r`, the zero vector being zero everywhere. -/
theorem select_vec_nonneg_ne_top (dg z eps : FVec Ideal S100000 .f32) (hz : z = fun _ => 0) (r : Fin 100000) :
    0 ≤ select (cmpf .ogt dg z) (Host.rsqrt (maximumf dg eps)) z (ix1 r)
      ∧ select (cmpf .ogt dg z) (Host.rsqrt (maximumf dg eps)) z (ix1 r) ≠ ⊤ := by
  subst hz
  exact select_rsqrt_nonneg_ne_top (dg (ix1 r)) (eps (ix1 r))

/-- Every factor is a non-negative real. -/
theorem fac_nonneg_ne_top (E : IVec S2x1600000 32) (r : Fin 100000) : 0 ≤ fac E r ∧ fac E r ≠ ⊤ := by
  unfold fac invVec
  exact select_vec_nonneg_ne_top (degVec E) _ _ (bcast_zero_f32 bcast_S_S100000) r

/-- An edge whose target index names node `r` has its wrapped target index read, clamped, as `r`. -/
theorem clampRow_wrapped_dst (d : IVec S1600000 32) (e : Fin 1600000) (r : Fin 100000)
    (hr : (colIdx d (ix2 e (0 : Fin 1))).toInt = (r.val : Int)) :
    clampRow 100000 (by decide) (colIdx (wrapIdx d)) e = r := by
  refine clampRow_of_wrapped (colIdx d) (colIdx (wrapIdx d)) e r ?_ hr
  rw [colIdx_apply, colIdx_apply, wrapIdx_apply]

end Cert.GcnNet

end
-- ==== Proof.KernelFold.lean ====
/-
  The result array as a function of the arguments. The launch memory is carried through @main in order — the host
  operations that split the index array into sources and targets and compute the node factors, the first dense
  launch, the gather along the sources and the accumulating scatter along the targets, the first epilogue launch,
  the second dense launch, the second gather and scatter, the last epilogue launch — and at each boundary the
  buffers the next stretch reads are named by the arrays they hold. The four launches' outputs are the whole-array
  functions `dense0 … dense3`; a buffer that a stretch does not write keeps what it held.
-/
import proofs.«114669_j11862699671726_2_alg».proof.Proof.Region0
import proofs.«114669_j11862699671726_2_alg».proof.Proof.Region1
import proofs.«114669_j11862699671726_2_alg».proof.Proof.Region2
import proofs.«114669_j11862699671726_2_alg».proof.Proof.Region3
import proofs.«114669_j11862699671726_2_alg».proof.Proof.Edges
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo Cert.GcnNet

variable (m : (ℓ : Loc nD τ sig) → Buf (Elt Ideal) ℓ) (ρ : Dev nD → PrngReg)

/-- Rows gathered along the sources and added into zeros along the targets, 128 columns. -/
def agg128 (E : IVec S2x1600000 32) (H : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (colIdx (dstVec E))
    (Host.gather gather_S100000x128_S1600000x1_S1600000x128_1_0_n_n_0_1_1128 H (colIdx (wrapIdx (srcVec E))))

/-- Rows gathered along the sources and added into zeros along the targets, 32 columns. -/
def agg32 (E : IVec S2x1600000 32) (H : FVec Ideal S100000x32 .f32) : FVec Ideal S100000x32 .f32 :=
  Host.scatterAdd scatter_S100000x32_S1600000x1_S1600000x32_1_0_0_1
    (broadcastInDim S100000x32 ![] bcast_S_S100000x32 (constant S_ .f32 0x00000000#32)) (colIdx (dstVec E))
    (Host.gather gather_S100000x32_S1600000x1_S1600000x32_1_0_n_n_0_1_132 H (colIdx (wrapIdx (srcVec E))))

/-- The program's result as one function of its six arguments. -/
def kernelOut (x0 : S100000x256.Idx → EReal) (x1 : S256x128.Idx → EReal) (x2 : S128.Idx → EReal) (x3 : S128x32.Idx → EReal)
    (x4 : S32.Idx → EReal) (E : IVec S2x1600000 32) : S100000x32.Idx → EReal :=
  dense3 (agg32 E (dense2 (dense1 (agg128 E (dense0 x0 x1 (invCol E))) (invCol E) (shapeCast S1x128 x2 shapeCasts_S128_S1x128)) x3 (invCol E)))
    (invCol E) (shapeCast S1x32 x4 shapeCasts_S32_S1x32)

/-! ## After the first stretches of host operations (the first launch's entry) -/

theorem w3_of_launch (c : Dev nD) (b : Ref sig .tc) :
    W3 m ρ c (Proc.devRef .tc b) = StableHlo.after hostOps0_2 (StableHlo.after hostOps0_1 (StableHlo.after hostOps0 (W0 m ρ c))) (Proc.devRef .tc b) := rfl

theorem w3_src (c : Dev nD) : (W3 m ρ c (Proc.devRef .tc main_v1) : S1600000.Idx → BitVec 32) = srcVec (m ((c : Thread nD τ).loc main_arg5)) := by
  rw [w3_of_launch]; dsimp only [hostOps0, hostOps0_1, hostOps0_2]; after_results; rfl
theorem w3_dst (c : Dev nD) : (W3 m ρ c (Proc.devRef .tc main_v3) : S1600000.Idx → BitVec 32) = dstVec (m ((c : Thread nD τ).loc main_arg5)) := by
  rw [w3_of_launch]; dsimp only [hostOps0, hostOps0_1, hostOps0_2]; after_results; rfl
/-- The selection, from any contents: the comparison's bits choose between the inverse roots and the broadcast zero. -/
theorem where0 (W : Valuation τ sig (Elt Ideal)) :
    (StableHlo.after hostOps0_1 W (Proc.devRef .tc main_v13) : S100000.Idx → EReal)
      = select (W (Proc.devRef .tc main_v9)) (W (Proc.devRef .tc main_v12))
          (broadcastInDim S100000 ![] bcast_S_S100000 (W (Proc.devRef .tc main_cst_3))) := by
  dsimp only [hostOps0_1]; after_results; rfl
/-- The factors as a column, from any contents. -/
theorem reshape0 (W : Valuation τ sig (Elt Ideal)) :
    (StableHlo.after hostOps0_2 W (Proc.devRef .tc main_v14) : S100000x1.Idx → EReal)
      = shapeCast S100000x1 (W (Proc.devRef .tc main_v13)) shapeCasts_S100000_S100000x1 := by
  dsimp only [hostOps0_2]; after_results; rfl
theorem w1_cmp (c : Dev nD) : (W1 m ρ c (Proc.devRef .tc main_v9) : S100000.Idx → BitVec 1)
    = cmpf .ogt (degVec (m ((c : Thread nD τ).loc main_arg5))) (broadcastInDim S100000 ![] bcast_S_S100000 (constant (F := Ideal) S_ .f32 0x00000000#32)) := by
  show StableHlo.after hostOps0 (W0 m ρ c) (Proc.devRef .tc main_v9) = _
  dsimp only [hostOps0]; after_results; rfl
theorem w1_rsqrt (c : Dev nD) : (W1 m ρ c (Proc.devRef .tc main_v12) : S100000.Idx → EReal)
    = Host.rsqrt (maximumf (degVec (m ((c : Thread nD τ).loc main_arg5))) (broadcastInDim S100000 ![] bcast_S_S100000 (constant (F := Ideal) S_ .f32 0x2B8CBCCC#32))) := by
  show StableHlo.after hostOps0 (W0 m ρ c) (Proc.devRef .tc main_v12) = _
  dsimp only [hostOps0]; after_results; rfl
theorem w1_zero (c : Dev nD) : (W1 m ρ c (Proc.devRef .tc main_cst_3) : S_.Idx → EReal) = constant (F := Ideal) S_ .f32 0x00000000#32 := by
  show StableHlo.after hostOps0 (W0 m ρ c) (Proc.devRef .tc main_cst_3) = _
  dsimp only [hostOps0]; after_results
theorem w3_inv (c : Dev nD) : (W3 m ρ c (Proc.devRef .tc main_v14) : S100000x1.Idx → EReal) = invCol (m ((c : Thread nD τ).loc main_arg5)) := by
  show StableHlo.after hostOps0_2 (W2 m ρ c) (Proc.devRef .tc main_v14) = _
  rw [reshape0]
  show shapeCast S100000x1 (StableHlo.after hostOps0_1 (W1 m ρ c) (Proc.devRef .tc main_v13)) shapeCasts_S100000_S100000x1 = _
  rw [where0, w1_cmp, w1_rsqrt, w1_zero]
  rfl
theorem w3_arg0 (c : Dev nD) : W3 m ρ c (Proc.devRef .tc main_arg0) = m ((c : Thread nD τ).loc main_arg0) := by
  rw [w3_of_launch]; dsimp only [hostOps0, hostOps0_1, hostOps0_2]; after_results
theorem w3_arg1 (c : Dev nD) : W3 m ρ c (Proc.devRef .tc main_arg1) = m ((c : Thread nD τ).loc main_arg1) := by
  rw [w3_of_launch]; dsimp only [hostOps0, hostOps0_1, hostOps0_2]; after_results
theorem w3_arg2 (c : Dev nD) : W3 m ρ c (Proc.devRef .tc main_arg2) = m ((c : Thread nD τ).loc main_arg2) := by
  rw [w3_of_launch]; dsimp only [hostOps0, hostOps0_1, hostOps0_2]; after_results
theorem w3_arg3 (c : Dev nD) : W3 m ρ c (Proc.devRef .tc main_arg3) = m ((c : Thread nD τ).loc main_arg3) := by
  rw [w3_of_launch]; dsimp only [hostOps0, hostOps0_1, hostOps0_2]; after_results
theorem w3_arg4 (c : Dev nD) : W3 m ρ c (Proc.devRef .tc main_arg4) = m ((c : Thread nD τ).loc main_arg4) := by
  rw [w3_of_launch]; dsimp only [hostOps0, hostOps0_1, hostOps0_2]; after_results

/-! ## After the first launch -/

theorem w4_out (c : Dev nD) : W4 m ρ c (Proc.devRef .tc main_v15)
    = dense0 (m ((c : Thread nD τ).loc main_arg0)) (m ((c : Thread nD τ).loc main_arg1)) (invCol (m ((c : Thread nD τ).loc main_arg5))) := by
  refine (W4_arr m ρ c 3).trans ((final0 (V3 m ρ) c).trans ?_)
  show dense0 (W3 m ρ c (Proc.devRef .tc main_arg0)) (W3 m ρ c (Proc.devRef .tc main_arg1)) (W3 m ρ c (Proc.devRef .tc main_v14)) = _
  rw [w3_arg0, w3_arg1, w3_inv]
theorem w4_inv (c : Dev nD) : W4 m ρ c (Proc.devRef .tc main_v14) = invCol (m ((c : Thread nD τ).loc main_arg5)) :=
  ((W4_arr m ρ c 2).trans (((dat0 (V3 m ρ) c).arrAt_in 2 rfl _).trans (A_eq0 (V3 m ρ) c 2))).trans (w3_inv m ρ c)
theorem w4_src (c : Dev nD) : W4 m ρ c (Proc.devRef .tc main_v1) = srcVec (m ((c : Thread nD τ).loc main_arg5)) :=
  (W4_of_ne m ρ c main_v1 (by decide)).trans (w3_src m ρ c)
theorem w4_dst (c : Dev nD) : W4 m ρ c (Proc.devRef .tc main_v3) = dstVec (m ((c : Thread nD τ).loc main_arg5)) :=
  (W4_of_ne m ρ c main_v3 (by decide)).trans (w3_dst m ρ c)
theorem w4_arg2 (c : Dev nD) : W4 m ρ c (Proc.devRef .tc main_arg2) = m ((c : Thread nD τ).loc main_arg2) :=
  (W4_of_ne m ρ c main_arg2 (by decide)).trans (w3_arg2 m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)

/-! ## After the first gather and scatter (the second launch's entry) -/

theorem w5_of (c : Dev nD) (b : Ref sig .tc) : W5 m ρ c (Proc.devRef .tc b) = StableHlo.after hostOps1 (W4 m ρ c) (Proc.devRef .tc b) := rfl

theorem w5_agg (c : Dev nD) : (W5 m ρ c (Proc.devRef .tc main_v25) : S100000x128.Idx → EReal)
    = agg128 (m ((c : Thread nD τ).loc main_arg5)) (dense0 (m ((c : Thread nD τ).loc main_arg0)) (m ((c : Thread nD τ).loc main_arg1)) (invCol (m ((c : Thread nD τ).loc main_arg5)))) := by
  rw [w5_of]; dsimp only [hostOps1]; after_results
  rw [w4_out, w4_src, w4_dst]; rfl
theorem w5_bias (c : Dev nD) : (W5 m ρ c (Proc.devRef .tc main_v26) : S1x128.Idx → EReal)
    = shapeCast S1x128 (m ((c : Thread nD τ).loc main_arg2)) shapeCasts_S128_S1x128 := by
  rw [w5_of]; dsimp only [hostOps1]; after_results
  rw [w4_arg2]; rfl
theorem w5_inv (c : Dev nD) : W5 m ρ c (Proc.devRef .tc main_v14) = invCol (m ((c : Thread nD τ).loc main_arg5)) := by
  rw [w5_of]; dsimp only [hostOps1]; after_results
  exact w4_inv m ρ c
theorem w5_src (c : Dev nD) : W5 m ρ c (Proc.devRef .tc main_v1) = srcVec (m ((c : Thread nD τ).loc main_arg5)) := by
  rw [w5_of]; dsimp only [hostOps1]; after_results
  exact w4_src m ρ c
theorem w5_dst (c : Dev nD) : W5 m ρ c (Proc.devRef .tc main_v3) = dstVec (m ((c : Thread nD τ).loc main_arg5)) := by
  rw [w5_of]; dsimp only [hostOps1]; after_results
  exact w4_dst m ρ c
theorem w5_arg3 (c : Dev nD) : W5 m ρ c (Proc.devRef .tc main_arg3) = m ((c : Thread nD τ).loc main_arg3) := by
  rw [w5_of]; dsimp only [hostOps1]; after_results
  exact w4_arg3 m ρ c
theorem w5_arg4 (c : Dev nD) : W5 m ρ c (Proc.devRef .tc main_arg4) = m ((c : Thread nD τ).loc main_arg4) := by
  rw [w5_of]; dsimp only [hostOps1]; after_results
  exact w4_arg4 m ρ c

/-! ## After the second launch, and after the third -/

theorem w6_out (c : Dev nD) : W6 m ρ c (Proc.devRef .tc main_v27)
    = dense1 (agg128 (m ((c : Thread nD τ).loc main_arg5)) (dense0 (m ((c : Thread nD τ).loc main_arg0)) (m ((c : Thread nD τ).loc main_arg1)) (invCol (m ((c : Thread nD τ).loc main_arg5)))))
        (invCol (m ((c : Thread nD τ).loc main_arg5))) (shapeCast S1x128 (m ((c : Thread nD τ).loc main_arg2)) shapeCasts_S128_S1x128) := by
  refine (W6_arr m ρ c 3).trans ((final1 (V5 m ρ) c).trans ?_)
  show dense1 (W5 m ρ c (Proc.devRef .tc main_v25)) (W5 m ρ c (Proc.devRef .tc main_v14)) (W5 m ρ c (Proc.devRef .tc main_v26)) = _
  rw [w5_agg, w5_inv, w5_bias]
theorem w6_inv (c : Dev nD) : W6 m ρ c (Proc.devRef .tc main_v14) = invCol (m ((c : Thread nD τ).loc main_arg5)) :=
  ((W6_arr m ρ c 1).trans (((dat1 (V5 m ρ) c).arrAt_in 1 rfl _).trans (A_eq1 (V5 m ρ) c 1))).trans (w5_inv m ρ c)
theorem w6_src (c : Dev nD) : W6 m ρ c (Proc.devRef .tc main_v1) = srcVec (m ((c : Thread nD τ).loc main_arg5)) :=
  (W6_of_ne m ρ c main_v1 (by decide)).trans (w5_src m ρ c)
theorem w6_dst (c : Dev nD) : W6 m ρ c (Proc.devRef .tc main_v3) = dstVec (m ((c : Thread nD τ).loc main_arg5)) :=
  (W6_of_ne m ρ c main_v3 (by decide)).trans (w5_dst m ρ c)
theorem w6_arg3 (c : Dev nD) : W6 m ρ c (Proc.devRef .tc main_arg3) = m ((c : Thread nD τ).loc main_arg3) :=
  (W6_of_ne m ρ c main_arg3 (by decide)).trans (w5_arg3 m ρ c)
theorem w6_arg4 (c : Dev nD) : W6 m ρ c (Proc.devRef .tc main_arg4) = m ((c : Thread nD τ).loc main_arg4) :=
  (W6_of_ne m ρ c main_arg4 (by decide)).trans (w5_arg4 m ρ c)

theorem w7_out (c : Dev nD) : W7 m ρ c (Proc.devRef .tc main_v28)
    = dense2 (dense1 (agg128 (m ((c : Thread nD τ).loc main_arg5)) (dense0 (m ((c : Thread nD τ).loc main_arg0)) (m ((c : Thread nD τ).loc main_arg1)) (invCol (m ((c : Thread nD τ).loc main_arg5)))))
        (invCol (m ((c : Thread nD τ).loc main_arg5))) (shapeCast S1x128 (m ((c : Thread nD τ).loc main_arg2)) shapeCasts_S128_S1x128))
        (m ((c : Thread nD τ).loc main_arg3)) (invCol (m ((c : Thread nD τ).loc main_arg5))) := by
  refine (W7_arr m ρ c 3).trans ((final2 (V6 m ρ) c).trans ?_)
  show dense2 (W6 m ρ c (Proc.devRef .tc main_v27)) (W6 m ρ c (Proc.devRef .tc main_arg3)) (W6 m ρ c (Proc.devRef .tc main_v14)) = _
  rw [w6_out, w6_arg3, w6_inv]
theorem w7_inv (c : Dev nD) : W7 m ρ c (Proc.devRef .tc main_v14) = invCol (m ((c : Thread nD τ).loc main_arg5)) :=
  ((W7_arr m ρ c 2).trans (((dat2 (V6 m ρ) c).arrAt_in 2 rfl _).trans (A_eq2 (V6 m ρ) c 2))).trans (w6_inv m ρ c)
theorem w7_src (c : Dev nD) : W7 m ρ c (Proc.devRef .tc main_v1) = srcVec (m ((c : Thread nD τ).loc main_arg5)) :=
  (W7_of_ne m ρ c main_v1 (by decide)).trans (w6_src m ρ c)
theorem w7_dst (c : Dev nD) : W7 m ρ c (Proc.devRef .tc main_v3) = dstVec (m ((c : Thread nD τ).loc main_arg5)) :=
  (W7_of_ne m ρ c main_v3 (by decide)).trans (w6_dst m ρ c)
theorem w7_arg4 (c : Dev nD) : W7 m ρ c (Proc.devRef .tc main_arg4) = m ((c : Thread nD τ).loc main_arg4) :=
  (W7_of_ne m ρ c main_arg4 (by decide)).trans (w6_arg4 m ρ c)

/-! ## After the second gather and scatter, and the last launch -/

theorem w8_of (c : Dev nD) (b : Ref sig .tc) : W8 m ρ c (Proc.devRef .tc b) = StableHlo.after hostOps3 (W7 m ρ c) (Proc.devRef .tc b) := rfl

theorem w8_agg_of (c : Dev nD) (H : S100000x32.Idx → EReal) (hH : W7 m ρ c (Proc.devRef .tc main_v28) = H) :
    (W8 m ρ c (Proc.devRef .tc main_v38) : S100000x32.Idx → EReal) = agg32 (m ((c : Thread nD τ).loc main_arg5)) H := by
  rw [w8_of]; dsimp only [hostOps3]; after_results
  rw [hH, w7_src, w7_dst]; rfl
theorem w8_agg (c : Dev nD) : (W8 m ρ c (Proc.devRef .tc main_v38) : S100000x32.Idx → EReal)
    = agg32 (m ((c : Thread nD τ).loc main_arg5)) (dense2 (dense1 (agg128 (m ((c : Thread nD τ).loc main_arg5)) (dense0 (m ((c : Thread nD τ).loc main_arg0)) (m ((c : Thread nD τ).loc main_arg1)) (invCol (m ((c : Thread nD τ).loc main_arg5)))))
        (invCol (m ((c : Thread nD τ).loc main_arg5))) (shapeCast S1x128 (m ((c : Thread nD τ).loc main_arg2)) shapeCasts_S128_S1x128))
        (m ((c : Thread nD τ).loc main_arg3)) (invCol (m ((c : Thread nD τ).loc main_arg5)))) :=
  w8_agg_of m ρ c _ (w7_out m ρ c)
theorem w8_bias (c : Dev nD) : (W8 m ρ c (Proc.devRef .tc main_v39) : S1x32.Idx → EReal)
    = shapeCast S1x32 (m ((c : Thread nD τ).loc main_arg4)) shapeCasts_S32_S1x32 := by
  rw [w8_of]; dsimp only [hostOps3]; after_results
  rw [w7_arg4]; rfl
theorem w8_inv (c : Dev nD) : W8 m ρ c (Proc.devRef .tc main_v14) = invCol (m ((c : Thread nD τ).loc main_arg5)) := by
  rw [w8_of]; dsimp only [hostOps3]; after_results
  exact w7_inv m ρ c

/-- THE RESULT: the last boundary's contents of the result buffer are `kernelOut` of the arguments. -/
theorem w9_out (c : Dev nD) : W9 m ρ c (Proc.devRef .tc main_v40)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 3).trans ((final3 (V8 m ρ) c).trans ?_)
  show dense3 (W8 m ρ c (Proc.devRef .tc main_v38)) (W8 m ρ c (Proc.devRef .tc main_v14)) (W8 m ρ c (Proc.devRef .tc main_v39)) = _
  rw [w8_agg, w8_inv, w8_bias]
  rfl

end Cert.KernelIdeal.Net

end
-- ==== Proof.KernelValue.lean ====
/-
  The program's result, node by node: `kernelOut` of the arguments at (r, q) is the network `net` at node r, class q,
  with the node factors `fac E`, the sources `colIdx (wrapIdx (srcVec E))` and the targets `colIdx (dstVec E)`.
  Each dense launch leaves the product's row r times the factor of r — a node array scaled row by row —, the gather
  and scatter between the launches add the scaled rows of the sources of the edges landing on a node, and the
  epilogue multiplies the sum by the node's factor again: that is the layer, by `layer_of_scaled_rows`.
-/
import proofs.«114669_j11862699671726_2_alg».proof.Proof.KernelFold
import proofs.«114669_j11862699671726_2_alg».proof.Proof.GcnSpec
import Idealize.ShloMosaic.Lib.ValueLayout

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GcnNet Cert.ScatterGather Cert.GraphMean Cert.Gcn Cert.Keepdims

section
variable (x0 : S100000x256.Idx → EReal) (x1 : S256x128.Idx → EReal) (x2 : S128.Idx → EReal) (x3 : S128x32.Idx → EReal)
  (x4 : S32.Idx → EReal) (E : IVec S2x1600000 32)

/-- The column of factors at row `r` is the factor of `r`. -/
theorem invCol_apply (r : Fin 100000) : invCol E (ix2 r (0 : Fin 1)) = fac E r :=
  shapeCast_a_a1_apply (invVec E) shapeCasts_S100000_S100000x1 r (0 : Fin 1)

/-- The first launch's array: the first product's row times the row's factor. -/
theorem dense0_apply (r : Fin 100000) (k : Fin 128) :
    dense0 x0 x1 (invCol E) (ix2 r k) = proj1 x0 x1 r k * fac E r := by
  show (∑ j : Fin 256, x0 (ix2 r j) * x1 (ix2 j k)) * invCol E (ix2 r (0 : Fin 1)) = _
  rw [invCol_apply]; rfl

/-- The first aggregation times the node's factor is the first layer. -/
theorem agg128_apply (r : Fin 100000) (k : Fin 128) :
    agg128 E (dense0 x0 x1 (invCol E)) (ix2 r k) * fac E r
      = layer (N := 100000) (by decide) (fac E) (colIdx (wrapIdx (srcVec E))) (colIdx (dstVec E)) (proj1 x0 x1) r k := by
  unfold agg128
  exact layer_of_scaled_rows (N := 100000) (M := 1600000) (C := 128) (w := 32) (by decide)
    gather_S100000x128_S1600000x1_S1600000x128_1_0_n_n_0_1_1128 gather_S100000x128_S1600000x1_S1600000x128_1_0_n_n_0_1_1128.wf rfl
    scatter_S100000x128_S1600000x1_S1600000x128_1_0_0_1 scatter_S100000x128_S1600000x1_S1600000x128_1_0_0_1.wf rfl
    _ (bcast_zero_f32 bcast_S_S100000x128) (dense0 x0 x1 (invCol E)) (proj1 x0 x1) (fac E) (dense0_apply x0 x1 E)
    (colIdx (wrapIdx (srcVec E))) (colIdx (dstVec E)) r k

/-- The second launch's array: the hidden activations. -/
theorem dense1_apply (r : Fin 100000) (k : Fin 128) :
    dense1 (agg128 E (dense0 x0 x1 (invCol E))) (invCol E) (shapeCast S1x128 x2 shapeCasts_S128_S1x128) (ix2 r k)
      = Cert.GcnNet.hidden (fac E) (colIdx (wrapIdx (srcVec E))) (colIdx (dstVec E)) x0 x1 x2 r k := by
  show max (agg128 E (dense0 x0 x1 (invCol E)) (ix2 r k) * invCol E (ix2 r (0 : Fin 1))
      + shapeCast S1x128 x2 shapeCasts_S128_S1x128 (ix2 (0 : Fin 1) k)) 0 = _
  rw [invCol_apply, agg128_apply, shapeCast_a_1a_apply]
  rfl

/-- The third launch's array: the second product's row times the row's factor. -/
theorem dense2_apply (r : Fin 100000) (q : Fin 32) :
    dense2 (dense1 (agg128 E (dense0 x0 x1 (invCol E))) (invCol E) (shapeCast S1x128 x2 shapeCasts_S128_S1x128)) x3 (invCol E) (ix2 r q)
      = proj2 (fac E) (colIdx (wrapIdx (srcVec E))) (colIdx (dstVec E)) x0 x1 x2 x3 r q * fac E r := by
  show (∑ j : Fin 128, dense1 (agg128 E (dense0 x0 x1 (invCol E))) (invCol E) (shapeCast S1x128 x2 shapeCasts_S128_S1x128) (ix2 r j) * x3 (ix2 j q))
      * invCol E (ix2 r (0 : Fin 1)) = _
  rw [invCol_apply]
  unfold proj2
  have hsum : (∑ j : Fin 128, dense1 (agg128 E (dense0 x0 x1 (invCol E))) (invCol E) (shapeCast S1x128 x2 shapeCasts_S128_S1x128) (ix2 r j) * x3 (ix2 j q))
      = ∑ k : Fin 128, Cert.GcnNet.hidden (fac E) (colIdx (wrapIdx (srcVec E))) (colIdx (dstVec E)) x0 x1 x2 r k * x3 (ix2 k q) :=
    Finset.sum_congr rfl fun j _ => by rw [dense1_apply]
  rw [hsum]

/-- The second aggregation times the node's factor is the second layer. -/
theorem agg32_apply (r : Fin 100000) (q : Fin 32) :
    agg32 E (dense2 (dense1 (agg128 E (dense0 x0 x1 (invCol E))) (invCol E) (shapeCast S1x128 x2 shapeCasts_S128_S1x128)) x3 (invCol E)) (ix2 r q) * fac E r
      = layer (N := 100000) (by decide) (fac E) (colIdx (wrapIdx (srcVec E))) (colIdx (dstVec E))
          (proj2 (fac E) (colIdx (wrapIdx (srcVec E))) (colIdx (dstVec E)) x0 x1 x2 x3) r q := by
  unfold agg32
  exact layer_of_scaled_rows (N := 100000) (M := 1600000) (C := 32) (w := 32) (by decide)
    gather_S100000x32_S1600000x1_S1600000x32_1_0_n_n_0_1_132 gather_S100000x32_S1600000x1_S1600000x32_1_0_n_n_0_1_132.wf rfl
    scatter_S100000x32_S1600000x1_S1600000x32_1_0_0_1 scatter_S100000x32_S1600000x1_S1600000x32_1_0_0_1.wf rfl
    _ (bcast_zero_f32 bcast_S_S100000x32) _ (proj2 (fac E) (colIdx (wrapIdx (srcVec E))) (colIdx (dstVec E)) x0 x1 x2 x3) (fac E)
    (dense2_apply x0 x1 x2 x3 E) (colIdx (wrapIdx (srcVec E))) (colIdx (dstVec E)) r q

/-- THE PROGRAM'S RESULT at node `r`, class `q` is the network. -/
theorem kernelOut_apply (r : Fin 100000) (q : Fin 32) :
    kernelOut x0 x1 x2 x3 x4 E (ix2 r q)
      = net (fac E) (colIdx (wrapIdx (srcVec E))) (colIdx (dstVec E)) x0 x1 x2 x3 x4 r q := by
  unfold kernelOut
  show logSoftmaxRow (fun k : Fin 32 =>
      agg32 E (dense2 (dense1 (agg128 E (dense0 x0 x1 (invCol E))) (invCol E) (shapeCast S1x128 x2 shapeCasts_S128_S1x128)) x3 (invCol E)) (ix2 r k)
        * invCol E (ix2 r (0 : Fin 1)) + shapeCast S1x32 x4 shapeCasts_S32_S1x32 (ix2 (0 : Fin 1) k)) q = _
  unfold net
  refine congrArg (fun z => logSoftmaxRow z q) (funext fun k => ?_)
  rw [invCol_apply, agg32_apply, shapeCast_a_1a_apply]
  rfl

end

end Cert.KernelIdeal.Net

end
-- ==== Proof.RefStagesBase.lean ====
/-
  The reference's 138 host operations cut into eight consecutive stretches — the operations up to the node factors'
  comparison and inverse roots, the selection of the factors, the first layer up to its bias, the clip at zero, the
  second dense product and the factors again, their selection, the second layer up to its bias, and the log-softmax —
  with the two facts the stretch-by-stretch reading of the run uses: running two lines one after the other is running
  their concatenation, and contents carried to a buffer's own type and back are the contents.
-/
import proofs.«114669_j11862699671726_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 1 to 19 of the reference. -/
abbrev opsP1 : List (HloOp τ sig (Elt F)) :=
  [ unary main_arg5 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg5 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg1 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v11 (broadcastInDim S100000 ![] bcast_S_S100000 : (⟨S_, .f32⟩ : BufTy).Contents (Elt F) → (⟨S100000, .f32⟩ : BufTy).Contents (Elt F)),
    binary main_v8 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_cst_3 (constant S_ .f32 0x00000000#32) ]

/-- Operations 20 to 22 of the reference. -/
abbrev opsT1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v10) (TRef.of (T := ⟨S100000, .f32⟩) main_v13) (TRef.of (T := ⟨S100000, .f32⟩) main_call0_v1) (TRef.of (T := ⟨S100000, .f32⟩) main_v14) select ]

/-- Operations 23 to 60 of the reference. -/
abbrev opsP2 : List (HloOp τ sig (Elt F)) :=
  [ nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    nullary main_c_7 (constantI S_ 32 0#32),
    unary main_c_7 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v4 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v40 (broadcastInDim S100000x128 ![] bcast_S_S100000x128 : (⟨S_, .f32⟩ : BufTy).Contents (Elt F) → (⟨S100000x128, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)) ]

/-- Operations 61 to 63 of the reference. -/
abbrev opsT2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v45) (TRef.of (T := ⟨S100000x128, .f32⟩) main_call1_v0) (TRef.of (T := ⟨S100000x128, .f32⟩) main_v46) maximumf ]

/-- Operations 64 to 82 of the reference. -/
abbrev opsP3 : List (HloOp τ sig (Elt F)) :=
  [ unary main_arg5 main_v47 ((extractStridedSlice S1x1600000 ![0, 0] · slices_S2x1600000_S1x1600000_0_0) : (⟨S2x1600000, .i32⟩ : BufTy).Contents (Elt F) → (⟨S1x1600000, .i32⟩ : BufTy).Contents (Elt F)),
    reshape main_v47 main_v48 rfl shapeCasts_S1x1600000_S1600000,
    unary main_arg5 main_v49 ((extractStridedSlice S1x1600000 ![1, 0] · slices_S2x1600000_S1x1600000_1_0) : (⟨S2x1600000, .i32⟩ : BufTy).Contents (Elt F) → (⟨S1x1600000, .i32⟩ : BufTy).Contents (Elt F)),
    reshape main_v49 main_v50 rfl shapeCasts_S1x1600000_S1600000,
    binary main_v46 main_arg3 main_v51 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    nullary main_cst_10 (constant S_ .f32 0x3F800000#32),
    unary main_cst_10 main_v52 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    unary main_v50 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x00000000#32),
    unary main_cst_12 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x2B8CBCCC#32),
    unary main_cst_13 main_v58 (broadcastInDim S100000 ![] bcast_S_S100000 : (⟨S_, .f32⟩ : BufTy).Contents (Elt F) → (⟨S100000, .f32⟩ : BufTy).Contents (Elt F)),
    binary main_v55 main_v58 main_v59 (maximumf : (⟨S100000, .f32⟩ : BufTy).Contents (Elt F) → (⟨S100000, .f32⟩ : BufTy).Contents (Elt F) → (⟨S100000, .f32⟩ : BufTy).Contents (Elt F)),
    unary main_v59 main_v60 (Host.rsqrt : (⟨S100000, .f32⟩ : BufTy).Contents (Elt F) → (⟨S100000, .f32⟩ : BufTy).Contents (Elt F)),
    nullary main_cst_14 (constant S_ .f32 0x00000000#32) ]

/-- Operations 83 to 85 of the reference. -/
abbrev opsT3 : List (HloOp τ sig (Elt F)) :=
  [ TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v60) (TRef.of (T := ⟨S100000, .f32⟩) main_call2_v1) (TRef.of (T := ⟨S100000, .f32⟩) main_v61) select ]

/-- Operations 86 to 123 of the reference. -/
abbrev opsP4 : List (HloOp τ sig (Elt F)) :=
  [ nullary main_c_15 (constantI S_ 32 0#32),
    unary main_c_15 main_v62 (broadcastInDim S1600000 ![] bcast_S_S1600000 : (⟨S_, .i32⟩ : BufTy).Contents (Elt F) → (⟨S1600000, .i32⟩ : BufTy).Contents (Elt F)),
    binary main_v48 main_v62 main_v63 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v64 (broadcastInDim S1600000 ![] bcast_S_S1600000 : (⟨S_, .i32⟩ : BufTy).Contents (Elt F) → (⟨S1600000, .i32⟩ : BufTy).Contents (Elt F)),
    binary main_v48 main_v64 main_v65 (addi : (⟨S1600000, .i32⟩ : BufTy).Contents (Elt F) → (⟨S1600000, .i32⟩ : BufTy).Contents (Elt F) → (⟨S1600000, .i32⟩ : BufTy).Contents (Elt F)),
    ternary main_v63 main_v65 main_v48 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v66 main_v67 (broadcastInDim S1600000x1 ![0] bcast_S1600000_S1600000x1_0 : (⟨S1600000, .i32⟩ : BufTy).Contents (Elt F) → (⟨S1600000x1, .i32⟩ : BufTy).Contents (Elt F)),
    binary main_v61 main_v67 main_v68 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v69 (broadcastInDim S1600000 ![] bcast_S_S1600000 : (⟨S_, .i32⟩ : BufTy).Contents (Elt F) → (⟨S1600000, .i32⟩ : BufTy).Contents (Elt F)),
    binary main_v50 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v71 (broadcastInDim S1600000 ![] bcast_S_S1600000 : (⟨S_, .i32⟩ : BufTy).Contents (Elt F) → (⟨S1600000, .i32⟩ : BufTy).Contents (Elt F)),
    binary main_v50 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_v50 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v61 main_v74 main_v75 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v68 main_v75 main_v76 (mulf : (⟨S1600000, .f32⟩ : BufTy).Contents (Elt F) → (⟨S1600000, .f32⟩ : BufTy).Contents (Elt F) → (⟨S1600000, .f32⟩ : BufTy).Contents (Elt F)),
    nullary main_c_19 (constantI S_ 32 0#32),
    unary main_c_19 main_v77 (broadcastInDim S1600000 ![] bcast_S_S1600000 : (⟨S_, .i32⟩ : BufTy).Contents (Elt F) → (⟨S1600000, .i32⟩ : BufTy).Contents (Elt F)),
    binary main_v48 main_v77 main_v78 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v79 (broadcastInDim S1600000 ![] bcast_S_S1600000 : (⟨S_, .i32⟩ : BufTy).Contents (Elt F) → (⟨S1600000, .i32⟩ : BufTy).Contents (Elt F)),
    binary main_v48 main_v79 main_v80 (addi : (⟨S1600000, .i32⟩ : BufTy).Contents (Elt F) → (⟨S1600000, .i32⟩ : BufTy).Contents (Elt F) → (⟨S1600000, .i32⟩ : BufTy).Contents (Elt F)),
    ternary main_v78 main_v80 main_v48 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v81 main_v82 (broadcastInDim S1600000x1 ![0] bcast_S1600000_S1600000x1_0 : (⟨S1600000, .i32⟩ : BufTy).Contents (Elt F) → (⟨S1600000x1, .i32⟩ : BufTy).Contents (Elt F)),
    binary main_v51 main_v82 main_v83 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v76 main_v84 (broadcastInDim S1600000x1 ![0] bcast_S1600000_S1600000x1_0 : (⟨S1600000, .f32⟩ : BufTy).Contents (Elt F) → (⟨S1600000x1, .f32⟩ : BufTy).Contents (Elt F)),
    unary main_v84 main_v85 (broadcastInDim S1600000x32 ![0, 1] bcast_S1600000x1_S1600000x32_0_1 : (⟨S1600000x1, .f32⟩ : BufTy).Contents (Elt F) → (⟨S1600000x32, .f32⟩ : BufTy).Contents (Elt F)),
    binary main_v83 main_v85 main_v86 (mulf : (⟨S1600000x32, .f32⟩ : BufTy).Contents (Elt F) → (⟨S1600000x32, .f32⟩ : BufTy).Contents (Elt F) → (⟨S1600000x32, .f32⟩ : BufTy).Contents (Elt F)),
    nullary main_cst_21 (constant S_ .f32 0x00000000#32),
    unary main_cst_21 main_v87 (broadcastInDim S100000x32 ![] bcast_S_S100000x32 : (⟨S_, .f32⟩ : BufTy).Contents (Elt F) → (⟨S100000x32, .f32⟩ : BufTy).Contents (Elt F)),
    unary main_v50 main_v88 (broadcastInDim S1600000x1 ![0] bcast_S1600000_S1600000x1_0 : (⟨S1600000, .i32⟩ : BufTy).Contents (Elt F) → (⟨S1600000x1, .i32⟩ : BufTy).Contents (Elt F)),
    ternary main_v87 main_v88 main_v86 main_v89 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg4 main_v90 (broadcastInDim S1x32 ![1] bcast_S32_S1x32_1 : (⟨S32, .f32⟩ : BufTy).Contents (Elt F) → (⟨S1x32, .f32⟩ : BufTy).Contents (Elt F)),
    unary main_v90 main_v91 (broadcastInDim S100000x32 ![0, 1] bcast_S1x32_S100000x32_0_1 : (⟨S1x32, .f32⟩ : BufTy).Contents (Elt F) → (⟨S100000x32, .f32⟩ : BufTy).Contents (Elt F)),
    binary main_v89 main_v91 main_v92 (addf : (⟨S100000x32, .f32⟩ : BufTy).Contents (Elt F) → (⟨S100000x32, .f32⟩ : BufTy).Contents (Elt F) → (⟨S100000x32, .f32⟩ : BufTy).Contents (Elt F)) ]

/-- Operations 124 to 138 of the reference. -/
abbrev opsC : List (HloOp τ sig (Elt F)) :=
  [ TRef.nullary (TRef.of (T := ⟨S_, .f32⟩) main_call3_cst) (constant S_ .f32 0xFF800000#32),
    TRef.binary (TRef.of (T := ⟨S100000x32, .f32⟩) main_v92) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v92) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v93) subf ]

set_option maxRecDepth 65536 in
/-- The stretches, one after the other, are the reference's operations. -/
theorem ops_split : (ops : List (HloOp τ sig (Elt F)))
    = opsP1 ++ (opsT1 ++ (opsP2 ++ (opsT2 ++ (opsP3 ++ (opsT3 ++ (opsP4 ++ opsC)))))) := rfl

/-- Running two lines one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- Contents carried to a buffer's own type and back are the contents. -/
theorem ofBuf_toBuf {T : BufTy} (x : TRef sig T) (v : T.Contents (Elt Ideal)) : x.ofBuf (x.toBuf v) = v := by
  obtain ⟨r, h, h1, h2⟩ := x
  subst h
  rfl

end Cert.ReferenceIdeal.Stages

end
-- ==== Proof.RefStageP1.lean ====
/-
  One stretch of the reference, the operations up to the node factors' comparison and inverse roots (operations 1 to 19), run from any contents: the
  buffers a later stretch reads end at their stages of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

set_option maxHeartbeats 4000000 in
theorem segP1_v1 (h_arg0 : W (Proc.devRef .tc main_arg0) = x0) (h_arg1 : W (Proc.devRef .tc main_arg1) = x1) (h_arg5 : W (Proc.devRef .tc main_arg5) = x5) :
    after (opsP1 (F := Ideal)) W (Proc.devRef .tc main_v1) = val_main_v1 (F := Ideal) x5 := by
  after_results_simp
  try rw [h_arg0]
  try rw [h_arg1]
  try rw [h_arg5]
  try rfl

set_option maxHeartbeats 4000000 in
theorem segP1_v3 (h_arg0 : W (Proc.devRef .tc main_arg0) = x0) (h_arg1 : W (Proc.devRef .tc main_arg1) = x1) (h_arg5 : W (Proc.devRef .tc main_arg5) = x5) :
    after (opsP1 (F := Ideal)) W (Proc.devRef .tc main_v3) = val_main_v3 (F := Ideal) x5 := by
  after_results_simp
  try rw [h_arg0]
  try rw [h_arg1]
  try rw [h_arg5]
  try rfl

set_option maxHeartbeats 4000000 in
theorem segP1_v4 (h_arg0 : W (Proc.devRef .tc main_arg0) = x0) (h_arg1 : W (Proc.devRef .tc main_arg1) = x1) (h_arg5 : W (Proc.devRef .tc main_arg5) = x5) :
    after (opsP1 (F := Ideal)) W (Proc.devRef .tc main_v4) = val_main_v4 (F := Ideal) x0 x1 := by
  after_results_simp
  try rw [h_arg0]
  try rw [h_arg1]
  try rw [h_arg5]
  try rfl

set_option maxHeartbeats 4000000 in
theorem segP1_v10 (h_arg0 : W (Proc.devRef .tc main_arg0) = x0) (h_arg1 : W (Proc.devRef .tc main_arg1) = x1) (h_arg5 : W (Proc.devRef .tc main_arg5) = x5) :
    after (opsP1 (F := Ideal)) W (Proc.devRef .tc main_v10) = val_main_v10 (F := Ideal) x5 := by
  after_results_simp
  try rw [h_arg0]
  try rw [h_arg1]
  try rw [h_arg5]
  try rfl

set_option maxHeartbeats 4000000 in
theorem segP1_v13 (h_arg0 : W (Proc.devRef .tc main_arg0) = x0) (h_arg1 : W (Proc.devRef .tc main_arg1) = x1) (h_arg5 : W (Proc.devRef .tc main_arg5) = x5) :
    after (opsP1 (F := Ideal)) W (Proc.devRef .tc main_v13) = val_main_v13 (F := Ideal) x5 := by
  after_results_simp
  try rw [h_arg0]
  try rw [h_arg1]
  try rw [h_arg5]
  try rfl

set_option maxHeartbeats 4000000 in
theorem segP1_cst_3 (h_arg0 : W (Proc.devRef .tc main_arg0) = x0) (h_arg1 : W (Proc.devRef .tc main_arg1) = x1) (h_arg5 : W (Proc.devRef .tc main_arg5) = x5) :
    after (opsP1 (F := Ideal)) W (Proc.devRef .tc main_cst_3) = val_main_cst_3 (F := Ideal) := by
  after_results_simp
  try rw [h_arg0]
  try rw [h_arg1]
  try rw [h_arg5]
  try rfl

theorem passP1_arg2 : after (opsP1 (F := Ideal)) W (Proc.devRef .tc main_arg2) = W (Proc.devRef .tc main_arg2) := by
  after_results_simp

theorem passP1_arg3 : after (opsP1 (F := Ideal)) W (Proc.devRef .tc main_arg3) = W (Proc.devRef .tc main_arg3) := by
  after_results_simp

theorem passP1_arg4 : after (opsP1 (F := Ideal)) W (Proc.devRef .tc main_arg4) = W (Proc.devRef .tc main_arg4) := by
  after_results_simp

theorem passP1_arg5 : after (opsP1 (F := Ideal)) W (Proc.devRef .tc main_arg5) = W (Proc.devRef .tc main_arg5) := by
  after_results_simp

end Cert.ReferenceIdeal.Stages

end
-- ==== Proof.RefStageT1.lean ====
/-
  One stretch of the reference, the selection of the node factors (operations 20 to 22), run from any contents: the
  buffer a later stretch reads ends at its stage of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

/-- The stretch's result from any contents. -/
theorem selectT1 : (after (opsT1 (F := Ideal)) W (Proc.devRef .tc main_v14) : S100000.Idx → EReal)
    = select (W (Proc.devRef .tc main_v10)) (W (Proc.devRef .tc main_v13))
        (broadcastInDim S100000 ![] bcast_S_S100000 (id (W (Proc.devRef .tc main_cst_3)))) := by
  after_results
  rfl

theorem segT1_v14 (h_v10 : W (Proc.devRef .tc main_v10) = val_main_v10 (F := Ideal) x5) (h_v13 : W (Proc.devRef .tc main_v13) = val_main_v13 (F := Ideal) x5) (h_cst_3 : W (Proc.devRef .tc main_cst_3) = val_main_cst_3 (F := Ideal)) :
    after (opsT1 (F := Ideal)) W (Proc.devRef .tc main_v14) = val_main_v14 (F := Ideal) x5 := by
  rw [selectT1, h_v10, h_v13, h_cst_3]
  rfl

theorem passT1_v1 : after (opsT1 (F := Ideal)) W (Proc.devRef .tc main_v1) = W (Proc.devRef .tc main_v1) := by
  after_results_simp

theorem passT1_v3 : after (opsT1 (F := Ideal)) W (Proc.devRef .tc main_v3) = W (Proc.devRef .tc main_v3) := by
  after_results_simp

theorem passT1_v4 : after (opsT1 (F := Ideal)) W (Proc.devRef .tc main_v4) = W (Proc.devRef .tc main_v4) := by
  after_results_simp

theorem passT1_arg2 : after (opsT1 (F := Ideal)) W (Proc.devRef .tc main_arg2) = W (Proc.devRef .tc main_arg2) := by
  after_results_simp

theorem passT1_arg3 : after (opsT1 (F := Ideal)) W (Proc.devRef .tc main_arg3) = W (Proc.devRef .tc main_arg3) := by
  after_results_simp

theorem passT1_arg4 : after (opsT1 (F := Ideal)) W (Proc.devRef .tc main_arg4) = W (Proc.devRef .tc main_arg4) := by
  after_results_simp

theorem passT1_arg5 : after (opsT1 (F := Ideal)) W (Proc.devRef .tc main_arg5) = W (Proc.devRef .tc main_arg5) := by
  after_results_simp

end Cert.ReferenceIdeal.Stages

end
-- ==== Proof.RefStageP2.lean ====
/-
  One stretch of the reference, the first layer up to its bias (operations 23 to 60), run from any contents: the
  buffers a later stretch reads end at their stages of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

set_option maxHeartbeats 4000000 in
theorem segP2_v45 (h_v1 : W (Proc.devRef .tc main_v1) = val_main_v1 (F := Ideal) x5) (h_v3 : W (Proc.devRef .tc main_v3) = val_main_v3 (F := Ideal) x5) (h_v4 : W (Proc.devRef .tc main_v4) = val_main_v4 (F := Ideal) x0 x1) (h_v14 : W (Proc.devRef .tc main_v14) = val_main_v14 (F := Ideal) x5) (h_arg2 : W (Proc.devRef .tc main_arg2) = x2) :
    after (opsP2 (F := Ideal)) W (Proc.devRef .tc main_v45) = val_main_v45 (F := Ideal) x0 x1 x2 x5 := by
  after_results_simp
  try rw [h_v1]
  try rw [h_v3]
  try rw [h_v4]
  try rw [h_v14]
  try rw [h_arg2]
  try rfl

theorem passP2_arg3 : after (opsP2 (F := Ideal)) W (Proc.devRef .tc main_arg3) = W (Proc.devRef .tc main_arg3) := by
  after_results_simp

theorem passP2_arg4 : after (opsP2 (F := Ideal)) W (Proc.devRef .tc main_arg4) = W (Proc.devRef .tc main_arg4) := by
  after_results_simp

theorem passP2_arg5 : after (opsP2 (F := Ideal)) W (Proc.devRef .tc main_arg5) = W (Proc.devRef .tc main_arg5) := by
  after_results_simp

end Cert.ReferenceIdeal.Stages

end
-- ==== Proof.RefStageT2.lean ====
/-
  One stretch of the reference, the clip at zero (operations 61 to 63), run from any contents: the
  buffer a later stretch reads ends at its stage of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

/-- The stretch's result from any contents. -/
theorem clipT2 : (after (opsT2 (F := Ideal)) W (Proc.devRef .tc main_v46) : S100000x128.Idx → EReal)
    = maximumf (W (Proc.devRef .tc main_v45))
        (broadcastInDim S100000x128 ![] bcast_S_S100000x128 (constant (F := Ideal) S_ .f32 0x00000000#32)) := by
  after_results
  rfl

theorem segT2_v46 (h_v45 : W (Proc.devRef .tc main_v45) = val_main_v45 (F := Ideal) x0 x1 x2 x5) :
    after (opsT2 (F := Ideal)) W (Proc.devRef .tc main_v46) = val_main_v46 (F := Ideal) x0 x1 x2 x5 := by
  rw [clipT2, h_v45]
  rfl

theorem passT2_arg3 : after (opsT2 (F := Ideal)) W (Proc.devRef .tc main_arg3) = W (Proc.devRef .tc main_arg3) := by
  after_results_simp

theorem passT2_arg4 : after (opsT2 (F := Ideal)) W (Proc.devRef .tc main_arg4) = W (Proc.devRef .tc main_arg4) := by
  after_results_simp

theorem passT2_arg5 : after (opsT2 (F := Ideal)) W (Proc.devRef .tc main_arg5) = W (Proc.devRef .tc main_arg5) := by
  after_results_simp

end Cert.ReferenceIdeal.Stages

end
-- ==== Proof.RefStageP3.lean ====
/-
  One stretch of the reference, the second dense product and the node factors again (operations 64 to 82), run from any contents: the
  buffers a later stretch reads end at their stages of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

set_option maxHeartbeats 4000000 in
theorem segP3_v48 (h_arg5 : W (Proc.devRef .tc main_arg5) = x5) (h_v46 : W (Proc.devRef .tc main_v46) = val_main_v46 (F := Ideal) x0 x1 x2 x5) (h_arg3 : W (Proc.devRef .tc main_arg3) = x3) :
    after (opsP3 (F := Ideal)) W (Proc.devRef .tc main_v48) = val_main_v48 (F := Ideal) x5 := by
  after_results_simp
  try rw [h_arg5]
  try rw [h_v46]
  try rw [h_arg3]
  try rfl

set_option maxHeartbeats 4000000 in
theorem segP3_v50 (h_arg5 : W (Proc.devRef .tc main_arg5) = x5) (h_v46 : W (Proc.devRef .tc main_v46) = val_main_v46 (F := Ideal) x0 x1 x2 x5) (h_arg3 : W (Proc.devRef .tc main_arg3) = x3) :
    after (opsP3 (F := Ideal)) W (Proc.devRef .tc main_v50) = val_main_v50 (F := Ideal) x5 := by
  after_results_simp
  try rw [h_arg5]
  try rw [h_v46]
  try rw [h_arg3]
  try rfl

set_option maxHeartbeats 4000000 in
theorem segP3_v51 (h_arg5 : W (Proc.devRef .tc main_arg5) = x5) (h_v46 : W (Proc.devRef .tc main_v46) = val_main_v46 (F := Ideal) x0 x1 x2 x5) (h_arg3 : W (Proc.devRef .tc main_arg3) = x3) :
    after (opsP3 (F := Ideal)) W (Proc.devRef .tc main_v51) = val_main_v51 (F := Ideal) x0 x1 x2 x3 x5 := by
  after_results_simp
  try rw [h_arg5]
  try rw [h_v46]
  try rw [h_arg3]
  try rfl

set_option maxHeartbeats 4000000 in
theorem segP3_v57 (h_arg5 : W (Proc.devRef .tc main_arg5) = x5) (h_v46 : W (Proc.devRef .tc main_v46) = val_main_v46 (F := Ideal) x0 x1 x2 x5) (h_arg3 : W (Proc.devRef .tc main_arg3) = x3) :
    after (opsP3 (F := Ideal)) W (Proc.devRef .tc main_v57) = val_main_v57 (F := Ideal) x5 := by
  after_results_simp
  try rw [h_arg5]
  try rw [h_v46]
  try rw [h_arg3]
  try rfl

set_option maxHeartbeats 4000000 in
theorem segP3_v60 (h_arg5 : W (Proc.devRef .tc main_arg5) = x5) (h_v46 : W (Proc.devRef .tc main_v46) = val_main_v46 (F := Ideal) x0 x1 x2 x5) (h_arg3 : W (Proc.devRef .tc main_arg3) = x3) :
    after (opsP3 (F := Ideal)) W (Proc.devRef .tc main_v60) = val_main_v60 (F := Ideal) x5 := by
  after_results_simp
  try rw [h_arg5]
  try rw [h_v46]
  try rw [h_arg3]
  try rfl

set_option maxHeartbeats 4000000 in
theorem segP3_cst_14 (h_arg5 : W (Proc.devRef .tc main_arg5) = x5) (h_v46 : W (Proc.devRef .tc main_v46) = val_main_v46 (F := Ideal) x0 x1 x2 x5) (h_arg3 : W (Proc.devRef .tc main_arg3) = x3) :
    after (opsP3 (F := Ideal)) W (Proc.devRef .tc main_cst_14) = val_main_cst_14 (F := Ideal) := by
  after_results_simp
  try rw [h_arg5]
  try rw [h_v46]
  try rw [h_arg3]
  try rfl

theorem passP3_arg4 : after (opsP3 (F := Ideal)) W (Proc.devRef .tc main_arg4) = W (Proc.devRef .tc main_arg4) := by
  after_results_simp

end Cert.ReferenceIdeal.Stages

end
-- ==== Proof.RefStageT3.lean ====
/-
  One stretch of the reference, the second selection of the node factors (operations 83 to 85), run from any contents: the
  buffer a later stretch reads ends at its stage of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

/-- The stretch's result from any contents. -/
theorem selectT3 : (after (opsT3 (F := Ideal)) W (Proc.devRef .tc main_v61) : S100000.Idx → EReal)
    = select (W (Proc.devRef .tc main_v57)) (W (Proc.devRef .tc main_v60))
        (broadcastInDim S100000 ![] bcast_S_S100000 (id (W (Proc.devRef .tc main_cst_14)))) := by
  after_results
  rfl

theorem segT3_v61 (h_v57 : W (Proc.devRef .tc main_v57) = val_main_v57 (F := Ideal) x5) (h_v60 : W (Proc.devRef .tc main_v60) = val_main_v60 (F := Ideal) x5) (h_cst_14 : W (Proc.devRef .tc main_cst_14) = val_main_cst_14 (F := Ideal)) :
    after (opsT3 (F := Ideal)) W (Proc.devRef .tc main_v61) = val_main_v61 (F := Ideal) x5 := by
  rw [selectT3, h_v57, h_v60, h_cst_14]
  rfl

theorem passT3_v48 : after (opsT3 (F := Ideal)) W (Proc.devRef .tc main_v48) = W (Proc.devRef .tc main_v48) := by
  after_results_simp

theorem passT3_v50 : after (opsT3 (F := Ideal)) W (Proc.devRef .tc main_v50) = W (Proc.devRef .tc main_v50) := by
  after_results_simp

theorem passT3_v51 : after (opsT3 (F := Ideal)) W (Proc.devRef .tc main_v51) = W (Proc.devRef .tc main_v51) := by
  after_results_simp

theorem passT3_arg4 : after (opsT3 (F := Ideal)) W (Proc.devRef .tc main_arg4) = W (Proc.devRef .tc main_arg4) := by
  after_results_simp

end Cert.ReferenceIdeal.Stages

end
-- ==== Proof.RefStageP4.lean ====
/-
  One stretch of the reference, the second layer up to its bias (operations 86 to 123), run from any contents: the
  buffers a later stretch reads end at their stages of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

set_option maxHeartbeats 4000000 in
theorem segP4_v92 (h_v48 : W (Proc.devRef .tc main_v48) = val_main_v48 (F := Ideal) x5) (h_v50 : W (Proc.devRef .tc main_v50) = val_main_v50 (F := Ideal) x5) (h_v51 : W (Proc.devRef .tc main_v51) = val_main_v51 (F := Ideal) x0 x1 x2 x3 x5) (h_v61 : W (Proc.devRef .tc main_v61) = val_main_v61 (F := Ideal) x5) (h_arg4 : W (Proc.devRef .tc main_arg4) = x4) :
    after (opsP4 (F := Ideal)) W (Proc.devRef .tc main_v92) = val_main_v92 (F := Ideal) x0 x1 x2 x3 x4 x5 := by
  after_results_simp
  try rw [h_v48]
  try rw [h_v50]
  try rw [h_v51]
  try rw [h_v61]
  try rw [h_arg4]
  try rfl

end Cert.ReferenceIdeal.Stages

end
-- ==== Proof.RefStageC.lean ====
/-
  One stretch of the reference, the log-softmax (operations 124 to 138), run from any contents: the
  buffers a later stretch reads end at their stages of the arguments when the buffers this stretch reads hold theirs,
  and a buffer the stretch does not write keeps what it held.
-/
import proofs.«114669_j11862699671726_2_alg».proof.Proof.RefStagesBase

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (W : Valuation τ sig (Elt Ideal))
  {x0 : (⟨S100000x256, .f32⟩ : BufTy).Contents (Elt Ideal)} {x1 : (⟨S256x128, .f32⟩ : BufTy).Contents (Elt Ideal)}
  {x2 : (⟨S128, .f32⟩ : BufTy).Contents (Elt Ideal)} {x3 : (⟨S128x32, .f32⟩ : BufTy).Contents (Elt Ideal)}
  {x4 : (⟨S32, .f32⟩ : BufTy).Contents (Elt Ideal)} {x5 : (⟨S2x1600000, .i32⟩ : BufTy).Contents (Elt Ideal)}

set_option maxHeartbeats 4000000 in
theorem segC_v93 (h_v92 : W (Proc.devRef .tc main_v92) = val_main_v92 (F := Ideal) x0 x1 x2 x3 x4 x5) :
    after (opsC (F := Ideal)) W (Proc.devRef .tc main_v93) = val_main_v93 (F := Ideal) x0 x1 x2 x3 x4 x5 := by
  after_results_simp
  try rw [h_v92]
  try simp only [ofBuf_toBuf]
  try rfl

end Cert.ReferenceIdeal.Stages

end
-- ==== Proof.RefStages.lean ====
/-
  The reference's run, stated over its stages: its eight stretches read one after the other, every buffer a later
  stretch reads named by its stage of the arguments, so that no step compares the whole composed term of the result
  with itself. Every weakly fair execution of the reference terminates with the result at its last stage
  `val_main_v93` of the arguments and the arguments unchanged.
-/
import proofs.«114669_j11862699671726_2_alg».proof.Proof.RefStageP1
import proofs.«114669_j11862699671726_2_alg».proof.Proof.RefStageT1
import proofs.«114669_j11862699671726_2_alg».proof.Proof.RefStageP2
import proofs.«114669_j11862699671726_2_alg».proof.Proof.RefStageT2
import proofs.«114669_j11862699671726_2_alg».proof.Proof.RefStageP3
import proofs.«114669_j11862699671726_2_alg».proof.Proof.RefStageT3
import proofs.«114669_j11862699671726_2_alg».proof.Proof.RefStageP4
import proofs.«114669_j11862699671726_2_alg».proof.Proof.RefStageC

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The run -/

set_option maxHeartbeats 8000000 in
/-- The result buffer after all the operations holds the last stage of the arguments. -/
theorem result_eq (m : (ℓ : Loc nD τ sig) → Buf (Elt Ideal) ℓ) (c : Dev nD) :
    after (ops (F := Ideal)) (launchContents m c) (Proc.devRef .tc main_v93)
      = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split]
  simp only [after_append]
  have a0 : launchContents m c (Proc.devRef .tc main_arg0) = m ((c.tc : Thread nD τ).loc main_arg0) := rfl
  have a1 : launchContents m c (Proc.devRef .tc main_arg1) = m ((c.tc : Thread nD τ).loc main_arg1) := rfl
  have a2 : launchContents m c (Proc.devRef .tc main_arg2) = m ((c.tc : Thread nD τ).loc main_arg2) := rfl
  have a3 : launchContents m c (Proc.devRef .tc main_arg3) = m ((c.tc : Thread nD τ).loc main_arg3) := rfl
  have a4 : launchContents m c (Proc.devRef .tc main_arg4) = m ((c.tc : Thread nD τ).loc main_arg4) := rfl
  have a5 : launchContents m c (Proc.devRef .tc main_arg5) = m ((c.tc : Thread nD τ).loc main_arg5) := rfl
  generalize launchContents m c = V at *
  have f0_v1 := segP1_v1 V a0 a1 a5
  have f0_v3 := segP1_v3 V a0 a1 a5
  have f0_v4 := segP1_v4 V a0 a1 a5
  have f0_v10 := segP1_v10 V a0 a1 a5
  have f0_v13 := segP1_v13 V a0 a1 a5
  have f0_cst_3 := segP1_cst_3 V a0 a1 a5
  have p0_arg2 := (passP1_arg2 V).trans a2
  have p0_arg3 := (passP1_arg3 V).trans a3
  have p0_arg4 := (passP1_arg4 V).trans a4
  have p0_arg5 := (passP1_arg5 V).trans a5
  generalize after (opsP1 (F := Ideal)) V = W1 at *
  have f1_v14 := segT1_v14 W1 f0_v10 f0_v13 f0_cst_3
  have p1_v1 := (passT1_v1 W1).trans f0_v1
  have p1_v3 := (passT1_v3 W1).trans f0_v3
  have p1_v4 := (passT1_v4 W1).trans f0_v4
  have p1_arg2 := (passT1_arg2 W1).trans p0_arg2
  have p1_arg3 := (passT1_arg3 W1).trans p0_arg3
  have p1_arg4 := (passT1_arg4 W1).trans p0_arg4
  have p1_arg5 := (passT1_arg5 W1).trans p0_arg5
  generalize after (opsT1 (F := Ideal)) W1 = W2 at *
  have f2_v45 := segP2_v45 W2 p1_v1 p1_v3 p1_v4 f1_v14 p1_arg2
  have p2_arg3 := (passP2_arg3 W2).trans p1_arg3
  have p2_arg4 := (passP2_arg4 W2).trans p1_arg4
  have p2_arg5 := (passP2_arg5 W2).trans p1_arg5
  generalize after (opsP2 (F := Ideal)) W2 = W3 at *
  have f3_v46 := segT2_v46 W3 f2_v45
  have p3_arg3 := (passT2_arg3 W3).trans p2_arg3
  have p3_arg4 := (passT2_arg4 W3).trans p2_arg4
  have p3_arg5 := (passT2_arg5 W3).trans p2_arg5
  generalize after (opsT2 (F := Ideal)) W3 = W4 at *
  have f4_v48 := segP3_v48 W4 p3_arg5 f3_v46 p3_arg3
  have f4_v50 := segP3_v50 W4 p3_arg5 f3_v46 p3_arg3
  have f4_v51 := segP3_v51 W4 p3_arg5 f3_v46 p3_arg3
  have f4_v57 := segP3_v57 W4 p3_arg5 f3_v46 p3_arg3
  have f4_v60 := segP3_v60 W4 p3_arg5 f3_v46 p3_arg3
  have f4_cst_14 := segP3_cst_14 W4 p3_arg5 f3_v46 p3_arg3
  have p4_arg4 := (passP3_arg4 W4).trans p3_arg4
  generalize after (opsP3 (F := Ideal)) W4 = W5 at *
  have f5_v61 := segT3_v61 W5 f4_v57 f4_v60 f4_cst_14
  have p5_v48 := (passT3_v48 W5).trans f4_v48
  have p5_v50 := (passT3_v50 W5).trans f4_v50
  have p5_v51 := (passT3_v51 W5).trans f4_v51
  have p5_arg4 := (passT3_arg4 W5).trans p4_arg4
  generalize after (opsT3 (F := Ideal)) W5 = W6 at *
  have f6_v92 := segP4_v92 W6 p5_v48 p5_v50 p5_v51 f5_v61 p5_arg4
  generalize after (opsP4 (F := Ideal)) W6 = W7 at *
  have f7_v93 := segC_v93 W7 f6_v92
  exact f7_v93

set_option maxRecDepth 8192 in
set_option maxHeartbeats 55200000 in
/-- Every weakly fair execution of the reference terminates with the result at its last stage of the arguments and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93)
        = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.RefValue.lean ====
/-
  The reference's result, node by node: its last value at (r, q) is the network `net` at node r, class q, with the
  node factors `fac E`, the sources and the targets read off the index array `E` exactly as the kernel's program
  reads them. The reference scales every gathered row by its edge's weight — the product of the factors of the
  edge's two ends — before adding it in; for an edge that lands on node r the second end IS r, so the weight's second
  factor is the factor of r and, a non-negative real, it comes out of the sum (`layer_of_edge_weights`). Its
  log-softmax takes the row's greatest entry once more against the pattern of −∞, which changes nothing, and starts
  the sum of exponentials from zero.
-/
import proofs.«114669_j11862699671726_2_alg».proof.Proof.RefRead
import proofs.«114669_j11862699671726_2_alg».proof.Proof.Edges
import proofs.«114669_j11862699671726_2_alg».proof.Proof.GcnSpec
import proofs.«114669_j11862699671726_2_alg».proof.Proof.LibRowReads

set_option maxRecDepth 16384

noncomputable section

namespace Cert.ReferenceIdeal.Net

open Cert.ReferenceIdeal Cert.ReferenceIdeal.Gen Cert.ReferenceIdeal.ReadP Idealize.ShloMosaic Idealize.ShloMosaic.ValueIdx
open Cert.GcnNet Cert.ScatterGather Cert.GraphMean Cert.Gcn Cert.RowReads

variable (x0 : (⟨S100000x256, .f32⟩ : BufTy).Contents (Elt Ideal)) (x1 : (⟨S256x128, .f32⟩ : BufTy).Contents (Elt Ideal))
  (x2 : (⟨S128, .f32⟩ : BufTy).Contents (Elt Ideal)) (x3 : (⟨S128x32, .f32⟩ : BufTy).Contents (Elt Ideal))
  (x4 : (⟨S32, .f32⟩ : BufTy).Contents (Elt Ideal)) (x5 : (⟨S2x1600000, .i32⟩ : BufTy).Contents (Elt Ideal))

/-- The sources, the targets and the wrapped targets as index columns. -/
abbrev srcCol : IVec ⟨2, ![1600000, 1]⟩ 32 := colIdx (wrapIdx (srcVec x5))
abbrev dstCol : IVec ⟨2, ![1600000, 1]⟩ 32 := colIdx (dstVec x5)
abbrev dstWrapCol : IVec ⟨2, ![1600000, 1]⟩ 32 := colIdx (wrapIdx (dstVec x5))

/-! ## The first layer -/

/-- The edge weights, broadcast along the 128 columns: the product of the two gathered factors. -/
theorem weights1_read (e : Fin 1600000) (k : Fin 128) :
    val_main_v38 (F := Ideal) x5 (ix2 e k)
      = mulf (Host.gather gather_S100000_S1600000x1_S1600000_n_0_n_n_0_1_1 (invVec x5) (srcCol x5))
          (Host.gather gather_S100000_S1600000x1_S1600000_n_0_n_n_0_1_1 (invVec x5) (dstWrapCol x5)) (ix1 e) := by
  rw [val_main_v38_apply, val_main_v37_apply]
  have hi : idx_main_v37 (idx_main_v38 (ix2 e k)) = ix1 e := funext fun a => Fin.ext (by match a with | ⟨0, _⟩ => rfl)
  rw [hi]; rfl

/-- The first dense product at (r, k). -/
theorem proj1_read (r : Fin 100000) (k : Fin 128) : val_main_v4 (F := Ideal) x0 x1 (ix2 r k) = proj1 x0 x1 r k := by
  rw [val_main_v4_apply]
  unfold proj1
  refine Finset.sum_congr rfl fun j _ => ?_
  have el : lidx_main_v4 (ix2 r k) j = ix2 r j := funext fun a => Fin.ext (by match a with | ⟨0, _⟩ => rfl | ⟨1, _⟩ => rfl)
  have er : ridx_main_v4 (ix2 r k) j = ix2 j k := funext fun a => Fin.ext (by match a with | ⟨0, _⟩ => rfl | ⟨1, _⟩ => rfl)
  rw [el, er]

/-- The first accumulating scatter at (r, k) is the first layer. -/
theorem layer1_read (r : Fin 100000) (k : Fin 128) :
    val_main_v42 (F := Ideal) x0 x1 x5 (ix2 r k)
      = layer (N := 100000) (by decide) (fac x5) (srcCol x5) (dstCol x5) (proj1 x0 x1) r k := by
  refine (layer_of_edge_weights (N := 100000) (M := 1600000) (C := 128) (w := 32) (by decide)
    gather_S100000x128_S1600000x1_S1600000x128_1_0_n_n_0_1_1128 gather_S100000x128_S1600000x1_S1600000x128_1_0_n_n_0_1_1128.wf rfl
    scatter_S100000x128_S1600000x1_S1600000x128_1_0_0_1 scatter_S100000x128_S1600000x1_S1600000x128_1_0_0_1.wf rfl
    gather_S100000_S1600000x1_S1600000_n_0_n_n_0_1_1 gather_S100000_S1600000x1_S1600000_n_0_n_n_0_1_1.wf rfl
    (val_main_v40 (F := Ideal)) (bcast_zero_f32 bcast_S_S100000x128) (val_main_v4 (F := Ideal) x0 x1) (invVec x5) (fac x5)
    (fun _ => rfl) (fac_nonneg_ne_top x5) (srcCol x5) (dstCol x5) (dstWrapCol x5)
    (fun e r h => clampRow_wrapped_dst (dstVec x5) e r h) (val_main_v38 (F := Ideal) x5) (weights1_read x5) r k).trans ?_
  exact layer_congr _ _ _ _ _ _ (proj1_read x0 x1) r k

/-- The hidden activations at (r, k). -/
theorem hidden_read (r : Fin 100000) (k : Fin 128) :
    val_main_v46 (F := Ideal) x0 x1 x2 x5 (ix2 r k) = Cert.GcnNet.hidden (fac x5) (srcCol x5) (dstCol x5) x0 x1 x2 r k := by
  rw [val_main_v46_apply, val_main_v45_apply, layer1_read, val_main_v44_apply, val_main_v43_apply, val_main_call1_v0_apply]
  have hi : idx_main_v43 (idx_main_v44 (ix2 r k)) = ix1 k := funext fun a => Fin.ext (by match a with | ⟨0, _⟩ => rfl)
  rw [hi]
  unfold Cert.GcnNet.hidden
  exact congrArg (max _) Ideal.ofBits_zero_f32

/-! ## The second layer -/

/-- The second dense product at (r, q). -/
theorem proj2_read (r : Fin 100000) (q : Fin 32) :
    val_main_v51 (F := Ideal) x0 x1 x2 x3 x5 (ix2 r q) = proj2 (fac x5) (srcCol x5) (dstCol x5) x0 x1 x2 x3 r q := by
  rw [val_main_v51_apply]
  unfold proj2
  refine Finset.sum_congr rfl fun j _ => ?_
  have el : lidx_main_v51 (ix2 r q) j = ix2 r j := funext fun a => Fin.ext (by match a with | ⟨0, _⟩ => rfl | ⟨1, _⟩ => rfl)
  have er : ridx_main_v51 (ix2 r q) j = ix2 j q := funext fun a => Fin.ext (by match a with | ⟨0, _⟩ => rfl | ⟨1, _⟩ => rfl)
  rw [el, er, hidden_read]

/-- The edge weights again, broadcast along the 32 columns. -/
theorem weights2_read (e : Fin 1600000) (k : Fin 32) :
    val_main_v85 (F := Ideal) x5 (ix2 e k)
      = mulf (Host.gather gather_S100000_S1600000x1_S1600000_n_0_n_n_0_1_1 (invVec x5) (srcCol x5))
          (Host.gather gather_S100000_S1600000x1_S1600000_n_0_n_n_0_1_1 (invVec x5) (dstWrapCol x5)) (ix1 e) := by
  rw [val_main_v85_apply, val_main_v84_apply]
  have hi : idx_main_v84 (idx_main_v85 (ix2 e k)) = ix1 e := funext fun a => Fin.ext (by match a with | ⟨0, _⟩ => rfl)
  rw [hi]; rfl

/-- The second accumulating scatter at (r, q) is the second layer. -/
theorem layer2_read (r : Fin 100000) (q : Fin 32) :
    val_main_v89 (F := Ideal) x0 x1 x2 x3 x5 (ix2 r q)
      = layer (N := 100000) (by decide) (fac x5) (srcCol x5) (dstCol x5) (proj2 (fac x5) (srcCol x5) (dstCol x5) x0 x1 x2 x3) r q := by
  refine (layer_of_edge_weights (N := 100000) (M := 1600000) (C := 32) (w := 32) (by decide)
    gather_S100000x32_S1600000x1_S1600000x32_1_0_n_n_0_1_132 gather_S100000x32_S1600000x1_S1600000x32_1_0_n_n_0_1_132.wf rfl
    scatter_S100000x32_S1600000x1_S1600000x32_1_0_0_1 scatter_S100000x32_S1600000x1_S1600000x32_1_0_0_1.wf rfl
    gather_S100000_S1600000x1_S1600000_n_0_n_n_0_1_1 gather_S100000_S1600000x1_S1600000_n_0_n_n_0_1_1.wf rfl
    (val_main_v87 (F := Ideal)) (bcast_zero_f32 bcast_S_S100000x32) (val_main_v51 (F := Ideal) x0 x1 x2 x3 x5) (invVec x5) (fac x5)
    (fun _ => rfl) (fac_nonneg_ne_top x5) (srcCol x5) (dstCol x5) (dstWrapCol x5)
    (fun e r h => clampRow_wrapped_dst (dstVec x5) e r h) (val_main_v85 (F := Ideal) x5) (weights2_read x5) r q).trans ?_
  exact layer_congr _ _ _ _ _ _ (proj2_read x0 x1 x2 x3 x5) r q

/-- The logits at (r, q). -/
theorem logits_read (r : Fin 100000) (q : Fin 32) :
    val_main_v92 (F := Ideal) x0 x1 x2 x3 x4 x5 (ix2 r q) = logits (fac x5) (srcCol x5) (dstCol x5) x0 x1 x2 x3 x4 r q := by
  rw [val_main_v92_apply, layer2_read, val_main_v91_apply, val_main_v90_apply]
  have hi : idx_main_v90 (idx_main_v91 (ix2 r q)) = ix1 q := funext fun a => Fin.ext (by match a with | ⟨0, _⟩ => rfl)
  rw [hi]
  rfl

/-! ## The log-softmax -/

/-- The row's greatest entry, as the reference takes it. -/
theorem top_read (r : Fin 100000) :
    val_main_call3_v2 (F := Ideal) x0 x1 x2 x3 x4 x5 (ix1 r) = rowTop (logits (fac x5) (srcCol x5) (dstCol x5) x0 x1 x2 x3 x4 r) := by
  have h0 : val_main_call3_v0 (F := Ideal) x0 x1 x2 x3 x4 x5 (ix1 r) = rowTop (logits (fac x5) (srcCol x5) (dstCol x5) x0 x1 x2 x3 x4 r) := by
    unfold val_main_call3_v0
    refine (hostRowMax_apply (val_main_v92 (F := Ideal) x0 x1 x2 x3 x4 x5) (val_main_call3_cst (F := Ideal)) reducesTo_S100000x32_S100000_d1 (by decide) h_S_ r).trans ?_
    have hf : (fun k : Fin 32 => val_main_v92 (F := Ideal) x0 x1 x2 x3 x4 x5 (ix2 r k)) = logits (fac x5) (srcCol x5) (dstCol x5) x0 x1 x2 x3 x4 r :=
      funext fun k => logits_read x0 x1 x2 x3 x4 x5 r k
    rw [hf]
    rfl
  rw [val_main_call3_v2_apply, val_main_call3_v1_apply, h0]
  exact max_init_rowTop _

/-- The shifted logits at (r, q). -/
theorem shifted_read (r : Fin 100000) (q : Fin 32) :
    val_main_call3_v5 (F := Ideal) x0 x1 x2 x3 x4 x5 (ix2 r q)
      = logits (fac x5) (srcCol x5) (dstCol x5) x0 x1 x2 x3 x4 r q - rowTop (logits (fac x5) (srcCol x5) (dstCol x5) x0 x1 x2 x3 x4 r) := by
  rw [val_main_call3_v5_apply, logits_read, val_main_call3_v4_apply, val_main_call3_v3_apply]
  have hi : idx_main_call3_v3 (idx_main_call3_v4 (ix2 r q)) = ix1 r := funext fun a => Fin.ext (by match a with | ⟨0, _⟩ => rfl)
  rw [hi, top_read]
  rfl

/-- The row's sum of exponentials. -/
theorem expsum_read (r : Fin 100000) :
    val_main_call3_v7 (F := Ideal) x0 x1 x2 x3 x4 x5 (ix1 r)
      = ∑ k : Fin 32, Ideal.exp (logits (fac x5) (srcCol x5) (dstCol x5) x0 x1 x2 x3 x4 r k - rowTop (logits (fac x5) (srcCol x5) (dstCol x5) x0 x1 x2 x3 x4 r)) := by
  rw [val_main_call3_v7_apply]
  have hz : val_main_call3_cst_1 (F := Ideal) (Shape.Idx.first h_S_) = 0 := Ideal.ofBits_zero_f32
  rw [hz, zero_add]
  refine Finset.sum_congr rfl fun k _ => ?_
  have hi : idx_main_call3_v7 (ix1 r) k = ix2 r k := funext fun a => Fin.ext (by match a with | ⟨0, _⟩ => rfl | ⟨1, _⟩ => rfl)
  rw [hi, val_main_call3_v6_apply, shifted_read]
  exact Ideal.hostUnary_exp_def _

/-- THE REFERENCE'S RESULT at node `r`, class `q` is the network. -/
theorem out_read (r : Fin 100000) (q : Fin 32) :
    val_main_v93 (F := Ideal) x0 x1 x2 x3 x4 x5 (ix2 r q) = net (fac x5) (srcCol x5) (dstCol x5) x0 x1 x2 x3 x4 r q := by
  rw [val_main_v93_apply, shifted_read, val_main_call3_v10_apply, val_main_call3_v9_apply, val_main_call3_v8_apply]
  have hi : idx_main_call3_v8 (idx_main_call3_v10 (ix2 r q)) = ix1 r := funext fun a => Fin.ext (by match a with | ⟨0, _⟩ => rfl)
  rw [hi, expsum_read, Ideal.subf_def, Ideal.hostUnary_log_def]
  rfl

end Cert.ReferenceIdeal.Net

end
-- ==== Proof.Agree.lean ====
/-
  The two programs compute one function: at every node r and class q the reference's last stage and the kernel
  program's result are both the network `net` with the same node factors, sources and targets.
-/
import proofs.«114669_j11862699671726_2_alg».proof.Proof.KernelValue
import proofs.«114669_j11862699671726_2_alg».proof.Proof.RefValue

noncomputable section

namespace Cert.GcnNet

open Idealize.ShloMosaic Idealize.ShloMosaic.ValueIdx

theorem result_agree
    (x0 : (⟨Cert.ReferenceIdeal.S100000x256, .f32⟩ : BufTy).Contents (Elt Ideal)) (x1 : (⟨Cert.ReferenceIdeal.S256x128, .f32⟩ : BufTy).Contents (Elt Ideal))
    (x2 : (⟨Cert.ReferenceIdeal.S128, .f32⟩ : BufTy).Contents (Elt Ideal)) (x3 : (⟨Cert.ReferenceIdeal.S128x32, .f32⟩ : BufTy).Contents (Elt Ideal))
    (x4 : (⟨Cert.ReferenceIdeal.S32, .f32⟩ : BufTy).Contents (Elt Ideal)) (x5 : (⟨Cert.ReferenceIdeal.S2x1600000, .i32⟩ : BufTy).Contents (Elt Ideal)) :
    Cert.ReferenceIdeal.ReadP.val_main_v93 (F := Ideal) x0 x1 x2 x3 x4 x5 = Cert.KernelIdeal.Net.kernelOut x0 x1 x2 x3 x4 x5 := by
  funext i
  obtain ⟨r, q, rfl⟩ : ∃ (r : Fin 100000) (q : Fin 32), i = ix2 r q := ⟨i 0, i 1, eq_ix2 i⟩
  rw [Cert.ReferenceIdeal.Net.out_read, Cert.KernelIdeal.Net.kernelOut_apply]

end Cert.GcnNet

end
-- ==== Proof.lean ====
/-
  A two-layer graph convolution network with symmetric normalisation over 100000 nodes and 1600000 edges, followed by a
  row-wise log-softmax: the kernel's program against its jnp reference, on the extended reals.

  Both programs split the index array into the edges' sources and targets, count every node's in-degree, and take the
  node factor c r = 1/√(max deg ε) where the degree is positive and 0 elsewhere. A layer sends a node array xw to
      layer[r, k] = c r · Σ_{e lands on r} xw[s e, k] · c (s e).
  The kernel's program scales the dense product's rows by c before the gather (inside the first and third launch),
  adds the gathered rows along the targets on the host, and scales the sums by c again in the epilogue launches: the
  formula, literally. The reference gathers the unscaled rows, scales each by its edge's weight c (s e) · c (d' e), and
  adds: for an edge that lands on r the weight's second factor is c r, a non-negative real, and such a factor
  distributes over a finite sum of extended reals whatever the summands are — so no finiteness of the inputs is used.
  The log-softmax is the same expression on both sides, the reference taking the row's greatest entry once more
  against −∞.

  The kernel program's result array is read off its run through the four launches (each launch's output one
  whole-array function of the arrays it reads, the host operations between them applied to those arrays); the
  reference's is its last stage; index by index both are the network `Cert.GcnNet.net`. The three frames are the
  runs with the results dropped; the idealization rewrote nothing.
-/
import proofs.«114669_j11862699671726_2_alg».proof.Defs
import proofs.«114669_j11862699671726_2_alg».proof.Proof.Gen.Kernel
import proofs.«114669_j11862699671726_2_alg».proof.Proof.Gen.Kernel.Skeleton
import proofs.«114669_j11862699671726_2_alg».proof.Proof.Gen.Kernel.Launch
import proofs.«114669_j11862699671726_2_alg».proof.Proof.Gen.Kernel.Points
import proofs.«114669_j11862699671726_2_alg».proof.Proof.Gen.Kernel.Frame
import proofs.«114669_j11862699671726_2_alg».proof.Proof.Gen.KernelIdeal
import proofs.«114669_j11862699671726_2_alg».proof.Proof.Gen.KernelIdeal.Skeleton
import proofs.«114669_j11862699671726_2_alg».proof.Proof.Gen.KernelIdeal.Launch
import proofs.«114669_j11862699671726_2_alg».proof.Proof.Gen.KernelIdeal.Points
import proofs.«114669_j11862699671726_2_alg».proof.Proof.Gen.KernelIdeal.Frame
import proofs.«114669_j11862699671726_2_alg».proof.Proof.Gen.ReferenceIdeal
import proofs.«114669_j11862699671726_2_alg».proof.Proof.Gen.Pre_finite_inputs
import proofs.«114669_j11862699671726_2_alg».proof.Proof.KernelRun
import proofs.«114669_j11862699671726_2_alg».proof.Proof.KernelValue
import proofs.«114669_j11862699671726_2_alg».proof.Proof.RefStages
import proofs.«114669_j11862699671726_2_alg».proof.Proof.RefValue
import proofs.«114669_j11862699671726_2_alg».proof.Proof.Agree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Stages.run m ρ)

theorem preserves : Cert.preserves_Kernel_KernelIdeal := trivial

/-- Both programs end with the network of the arguments in their result arrays. -/
theorem algebraic : Cert.algebraic_KernelIdeal_ReferenceIdeal := by
  intro m ρ m' ρ' _ hagree
  refine ⟨fun c => Cert.KernelIdeal.Net.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Net.w9_out m ρ c), (h c).2⟩) (Cert.KernelIdeal.Net.run_last m ρ)
  · refine (θ_run Cert.ReferenceIdeal.defs _ _).mono (fun _ h c => ⟨(h c).1.trans ?_, (h c).2⟩)
      (Cert.ReferenceIdeal.Stages.run m' ρ')
    rw [(hagree c).1, (hagree c).2.1, (hagree c).2.2.1, (hagree c).2.2.2.1, (hagree c).2.2.2.2.1, (hagree c).2.2.2.2.2]
    exact Cert.GcnNet.result_agree _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
